-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S512 .f32) (main_arg7 : FVec F S512x128 .f32) (main_arg8 : FVec F S128 .f32) (main_arg9 : FVec F S128x1 .f32) (main_arg10 : FVec F S1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S128x512 .f32) (main_arg6 : FVec F S512 .f32) (main_arg7 : FVec F S512x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S800000x128 : Shape := ⟨2, ![800000, 128]⟩
abbrev S1x1 : Shape := ⟨2, ![1, 1]⟩
abbrev S64x128 : Shape := ⟨2, ![64, 128]⟩
abbrev S64 : Shape := ⟨1, ![64]⟩
abbrev S64x1 : Shape := ⟨2, ![64, 1]⟩
abbrev S64x512 : Shape := ⟨2, ![64, 512]⟩
abbrev S1x512 : Shape := ⟨2, ![1, 512]⟩

abbrev nBuf : Space → Nat
  | .hbm => 148
  | .vmem => 42
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S128x512, .f32⟩
  | 6 => ⟨S512, .f32⟩
  | 7 => ⟨S512x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000, .f32⟩
  | 45 => ⟨S50000x1, .f32⟩
  | 46 => ⟨S50000x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x1, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S50000x1, .f32⟩
  | 117 => ⟨S1x1, .f32⟩
  | 118 => ⟨S50000x1, .f32⟩
  | 119 => ⟨S50000x1, .f32⟩
  | 120 => ⟨S50000, .f32⟩
  | 121 => ⟨S_, .f32⟩
  | 122 => ⟨S64x128, .f32⟩
  | 123 => ⟨S50000x1, .i32⟩
  | 124 => ⟨S64x128, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S64, .f32⟩
  | 1 => ⟨S50000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | 9 => ⟨S64x512, .f32⟩
  | 10 => ⟨S1x512, .f32⟩
  | 11 => ⟨S64x512, .f32⟩
  | 12 => ⟨S64x512, .f32⟩
  | 13 => ⟨S_, .f32⟩
  | 14 => ⟨S64x512, .f32⟩
  | 15 => ⟨S64x512, .f32⟩
  | 16 => ⟨S64x128, .f32⟩
  | 17 => ⟨S1x128, .f32⟩
  | 18 => ⟨S64x128, .f32⟩
  | 19 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_11 : Ref sig .tc := ⟨.hbm, 99, rfl⟩
abbrev main_v75 : Ref sig .tc := ⟨.hbm, 100, rfl⟩
abbrev main_v76 : Ref sig .tc := ⟨.hbm, 101, rfl⟩
abbrev main_c_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_14 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_cst_16 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_17 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_call0_cst : Ref sig .tc := ⟨.hbm, 141, rfl⟩
abbrev main_call0_v0 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x512_S64x512_1_0_0_1_n_n_wf : DotDims.WF S64x128 S128x512 S64x512 [1] [0] [0] [1] [] []
  dot_S64x512_S512x128_S64x128_1_0_0_1_n_n_wf : DotDims.WF S64x512 S512x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x1 : Shape := ⟨2, ![1, 1]⟩
abbrev S64x128 : Shape := ⟨2, ![64, 128]⟩
abbrev S64 : Shape := ⟨1, ![64]⟩
abbrev S64x1 : Shape := ⟨2, ![64, 1]⟩
abbrev S64x512 : Shape := ⟨2, ![64, 512]⟩
abbrev S1x512 : Shape := ⟨2, ![1, 512]⟩

abbrev nBuf : Space → Nat
  | .hbm => 230
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S128x512, .f32⟩
  | 6 => ⟨S512, .f32⟩
  | 7 => ⟨S512x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S1x128x128, .f32⟩
  | 16 => ⟨S128x128, .f32⟩
  | 17 => ⟨S1x128, .f32⟩
  | 18 => ⟨S128, .f32⟩
  | 19 => ⟨S50000x128, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S50000x128, .f32⟩
  | 81 => ⟨S_, .f32⟩
  | 82 => ⟨S800000, .f32⟩
  | 83 => ⟨S_, .f32⟩
  | 84 => ⟨S50000, .f32⟩
  | 85 => ⟨S800000x1, .i32⟩
  | 86 => ⟨S50000, .f32⟩
  | 87 => ⟨S_, .f32⟩
  | 88 => ⟨S50000, .f32⟩
  | 89 => ⟨S50000, .f32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S800000, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S50000x128, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x1, .f32⟩
  | 71 => ⟨S1x1, .f32⟩
  | 72 => ⟨S50000x1, .f32⟩
  | 73 => ⟨S50000x1, .f32⟩
  | 74 => ⟨S50000, .f32⟩
  | 75 => ⟨S_, .f32⟩
  | 76 => ⟨S64x128, .f32⟩
  | 77 => ⟨S50000x1, .i32⟩
  | 78 => ⟨S64x128, .f32⟩
  | 79 => ⟨S_, .f32⟩
  | 80 => ⟨S50000, .f32⟩
  | 81 => ⟨S_, .f32⟩
  | 82 => ⟨S64, .f32⟩
  | 83 => ⟨S50000x1, .i32⟩
  | 84 => ⟨S64, .f32⟩
  | 85 => ⟨S_, .f32⟩
  | 86 => ⟨S64, .f32⟩
  | 87 => ⟨S64, .f32⟩
  | 88 => ⟨S64x1, .f32⟩
  | 89 => ⟨S64x128, .f32⟩
  | 90 => ⟨S64x128, .f32⟩
  | 91 => ⟨S64x512, .f32⟩
  | 92 => ⟨S1x512, .f32⟩
  | 93 => ⟨S64x512, .f32⟩
  | 94 => ⟨S64x512, .f32⟩
  | 95 => ⟨S_, .f32⟩
  | 96 => ⟨S64x512, .f32⟩
  | 97 => ⟨S64x512, .f32⟩
  | 98 => ⟨S64x128, .f32⟩
  | 99 => ⟨S1x128, .f32⟩
  | 100 => ⟨S64x128, .f32⟩
  | 101 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_cst : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call1_cst : Ref sig .tc := ⟨.hbm, 134, rfl⟩
abbrev main_call1_v0 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_cst_19 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_20 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_21 : Ref sig .tc := ⟨.hbm, 152, rfl⟩
abbrev main_v114 : Ref sig .tc := ⟨.hbm, 153, rfl⟩
abbrev main_v115 : Ref sig .tc := ⟨.hbm, 154, rfl⟩
abbrev main_c_22 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_23 : Ref sig .tc := ⟨.hbm, 161, rfl⟩
abbrev main_v121 : Ref sig .tc := ⟨.hbm, 162, rfl⟩
abbrev main_v122 : Ref sig .tc := ⟨.hbm, 163, rfl⟩
abbrev main_c_24 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_25 : Ref sig .tc := ⟨.hbm, 172, rfl⟩
abbrev main_v130 : Ref sig .tc := ⟨.hbm, 173, rfl⟩
abbrev main_v131 : Ref sig .tc := ⟨.hbm, 174, rfl⟩
abbrev main_c_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_27 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_call2_cst : Ref sig .tc := ⟨.hbm, 195, rfl⟩
abbrev main_call2_v0 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_28 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_29 : Ref sig .tc := ⟨.hbm, 207, rfl⟩
abbrev main_v159 : Ref sig .tc := ⟨.hbm, 208, rfl⟩
abbrev main_cst_30 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_31 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_call3_cst : Ref sig .tc := ⟨.hbm, 223, rfl⟩
abbrev main_call3_v0 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1x128_S64x128_0_1 : S1x128.BroadcastsInDim S64x128 (![0, 1] : Fin 2 → Fin S64x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x512_S64x512_1_0_0_1_n_n_wf : DotDims.WF S64x128 S128x512 S64x512 [1] [0] [0] [1] [] []
  dot_S64x512_S512x128_S64x128_1_0_0_1_n_n_wf : DotDims.WF S64x512 S512x128 S64x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

class Facts : Prop extends Facts₀ where

variable [Facts]
-- ==== Proof.KernelRun.lean ====
/-
  The idealized kernel's whole run, with every buffer named at its end.

  The program is fifteen stretches in a row: host operations, then a tiled region, then host operations, and so on.
  Write W0 for the memory at launch and W(j+1) for the memory after stretch j: a host stretch applies its operations
  to the memory it finds; a tiled region leaves each of its arrays at what its write-backs add up to and every other
  buffer as it found it. Every weakly fair execution terminates without a fault, and at the end every buffer that
  outlives a region holds what W15 says — in particular the two results and the eleven arguments.
-/
import proofs.«144507_j55997783605447_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives a region
    ends at the last boundary's contents. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.KernelIdeal.RunValue

end
-- ==== Proof.Spec.lean ====
/-
  The two array functions a graph-convolution layer is made of, index by index on the extended reals, over the
  literal shapes of this problem: 50000 nodes, 128 features.

  * `rowDot x w` is the dense transform: entry (r, q) is the sum over k of x[r, k] · w[k, q].
  * `combine h agg d b` is the layer's closing step: entry (r, q) is
    max (agg[r, q] + h[r, q] · d[r, q] + b[0, q], 0) — the neighbours' weighted sum, plus the node's own transformed
    feature scaled by its inverse degree (the self loop), plus the column's bias, clipped below at zero.

  Both programs compute these two functions: one of them tile by tile over blocks of 5000 rows, the other in one piece.
  A sum over a finite index set on the extended reals does not depend on how its terms are grouped, and a row of a
  product depends only on that row of the left factor, so the tiling changes nothing.
-/
import Idealize.ShloMosaic.PureOps.Ideal
import Idealize.ShloMosaic.Lib.ValueIdx

noncomputable section

namespace Cert.Spec

open Idealize.ShloMosaic Idealize.ShloMosaic.ValueIdx

/-- Node features: 50000 rows of 128. -/
abbrev SN : Shape := ⟨2, ![50000, 128]⟩
/-- A layer's weight matrix. -/
abbrev SW : Shape := ⟨2, ![128, 128]⟩
/-- A layer's bias as one row. -/
abbrev SB : Shape := ⟨2, ![1, 128]⟩
/-- A layer's bias as a vector. -/
abbrev SV : Shape := ⟨1, ![128]⟩

/-- Entry (r, q) of the product of `x` (rows r) and `w` (columns q): the sum over k of x[r, k] · w[k, q]. -/
def rowDot (x : SN.Idx → EReal) (w : SW.Idx → EReal) : SN.Idx → EReal :=
  fun i => ∑ k : Fin 128, x (ix2 (⟨(i 0).val, idx2_lt0 i⟩ : Fin 50000) k) * w (ix2 k (⟨(i 1).val, idx2_lt1 i⟩ : Fin 128))

/-- Entry (r, q) of the layer's closing step: max (agg + h · d + b[0, q], 0). -/
def combine (h agg d : SN.Idx → EReal) (b : SB.Idx → EReal) : SN.Idx → EReal :=
  fun i => max (agg i + h i * d i + b (ix2 (0 : Fin 1) (⟨(i 1).val, idx2_lt1 i⟩ : Fin 128))) 0

/-- A bias vector laid out as one row: entry (0, q) of the row is entry q of the vector. -/
def biasRow (v : SV.Idx → EReal) : SB.Idx → EReal :=
  fun j => v (ix1 (⟨(j 1).val, idx2_lt1 j⟩ : Fin 128))

end Cert.Spec

end
-- ==== Proof.Boundary0.lean ====
/-
  The idealized kernel's memory, boundary by boundary: what the first host stretch computes, and what is carried.

  The first host stretch computes everything that depends on the edge list only: the edges' source and target nodes,
  each node's degree (its number of incoming edges plus one), the inverse root degrees, each edge's coefficient (the
  product of its two ends' inverse root degrees) and each node's squared inverse root degree spread over the feature
  axis. These are the same operations of the same edge list that the reference applies, so each equals the
  reference's stage of that name. The kernel computes them once; no later stretch and no tiled region writes their
  buffers, so every layer finds them as the first stretch left them. The rest of this file is that bookkeeping: a
  buffer that a host stretch does not write, and a buffer that a tiled region does not write back to, is after it
  what it was before.
-/
import proofs.«144507_j55997783605447_1_alg».proof.Proof.Gen.KernelIdeal.Frame
import proofs.«144507_j55997783605447_1_alg».proof.Proof.Gen.ReferenceIdeal.Read
import proofs.«144507_j55997783605447_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Boundary

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read
open Cert.Spec

variable (m : (ℓ : Loc nD τ sig) → Buf (Elt Ideal) ℓ) (ρ : Dev nD → PrngReg) (c : Dev nD)

/-! ## Carried buffers -/

/-- The edges' source nodes are as the first stretch left them when the first layer gathers. -/
theorem keep_v1_2_1 : W2 m ρ c (Proc.devRef .tc main_v1) = W1 m ρ c (Proc.devRef .tc main_v1) := by
  exact (W2_of_ne m ρ c _ (by decide))

/-- The edges' source nodes are as the first stretch left them when the second layer gathers. -/
theorem keep_v1_6_1 : W6 m ρ c (Proc.devRef .tc main_v1) = W1 m ρ c (Proc.devRef .tc main_v1) := by
  refine (W6_of_ne m ρ c _ (by decide)).trans ?_
  refine (show W5 m ρ c (Proc.devRef .tc main_v1) = W4 m ρ c (Proc.devRef .tc main_v1) from by dsimp only [W5, hostOps2]; after_results).trans ?_
  refine (W4_of_ne m ρ c _ (by decide)).trans ?_
  refine (show W3 m ρ c (Proc.devRef .tc main_v1) = W2 m ρ c (Proc.devRef .tc main_v1) from by dsimp only [W3, hostOps1]; after_results).trans ?_
  exact (W2_of_ne m ρ c _ (by decide))

/-- The edges' source nodes are as the first stretch left them when the third layer gathers. -/
theorem keep_v1_10_1 : W10 m ρ c (Proc.devRef .tc main_v1) = W1 m ρ c (Proc.devRef .tc main_v1) := by
  refine (W10_of_ne m ρ c _ (by decide)).trans ?_
  refine (show W9 m ρ c (Proc.devRef .tc main_v1) = W8 m ρ c (Proc.devRef .tc main_v1) from by dsimp only [W9, hostOps4]; after_results).trans ?_
  refine (W8_of_ne m ρ c _ (by decide)).trans ?_
  refine (show W7 m ρ c (Proc.devRef .tc main_v1) = W6 m ρ c (Proc.devRef .tc main_v1) from by dsimp only [W7, hostOps3]; after_results).trans ?_
  refine (W6_of_ne m ρ c _ (by decide)).trans ?_
  refine (show W5 m ρ c (Proc.devRef .tc main_v1) = W4 m ρ c (Proc.devRef .tc main_v1) from by dsimp only [W5, hostOps2]; after_results).trans ?_
  refine (W4_of_ne m ρ c _ (by decide)).trans ?_
  refine (show W3 m ρ c (Proc.devRef .tc main_v1) = W2 m ρ c (Proc.devRef .tc main_v1) from by dsimp only [W3, hostOps1]; after_results).trans ?_
  exact (W2_of_ne m ρ c _ (by decide))

/-- The edges' target nodes are as the first stretch left them when the first layer gathers. -/
theorem keep_v3_2_1 : W2 m ρ c (Proc.devRef .tc main_v3) = W1 m ρ c (Proc.devRef .tc main_v3) := by
  exact (W2_of_ne m ρ c _ (by decide))

/-- The edges' target nodes are as the first stretch left them when the second layer gathers. -/
theorem keep_v3_6_1 : W6 m ρ c (Proc.devRef .tc main_v3) = W1 m ρ c (Proc.devRef .tc main_v3) := by
  refine (W6_of_ne m ρ c _ (by decide)).trans ?_
  refine (show W5 m ρ c (Proc.devRef .tc main_v3) = W4 m ρ c (Proc.devRef .tc main_v3) from by dsimp only [W5, hostOps2]; after_results).trans ?_
  refine (W4_of_ne m ρ c _ (by decide)).trans ?_
  refine (show W3 m ρ c (Proc.devRef .tc main_v3) = W2 m ρ c (Proc.devRef .tc main_v3) from by dsimp only [W3, hostOps1]; after_results).trans ?_
  exact (W2_of_ne m ρ c _ (by decide))

/-- The edges' target nodes are as the first stretch left them when the third layer gathers. -/
theorem keep_v3_10_1 : W10 m ρ c (Proc.devRef .tc main_v3) = W1 m ρ c (Proc.devRef .tc main_v3) := by
  refine (W10_of_ne m ρ c _ (by decide)).trans ?_
  refine (show W9 m ρ c (Proc.devRef .tc main_v3) = W8 m ρ c (Proc.devRef .tc main_v3) from by dsimp only [W9, hostOps4]; after_results).trans ?_
  refine (W8_of_ne m ρ c _ (by decide)).trans ?_
  refine (show W7 m ρ c (Proc.devRef .tc main_v3) = W6 m ρ c (Proc.devRef .tc main_v3) from by dsimp only [W7, hostOps3]; after_results).trans ?_
  refine (W6_of_ne m ρ c _ (by decide)).trans ?_
  refine (show W5 m ρ c (Proc.devRef .tc main_v3) = W4 m ρ c (Proc.devRef .tc main_v3) from by dsimp only [W5, hostOps2]; after_results).trans ?_
  refine (W4_of_ne m ρ c _ (by decide)).trans ?_
  refine (show W3 m ρ c (Proc.devRef .tc main_v3) = W2 m ρ c (Proc.devRef .tc main_v3) from by dsimp only [W3, hostOps1]; after_results).trans ?_
  exact (W2_of_ne m ρ c _ (by decide))

/-- The edge coefficients are as the first stretch left them when the first layer gathers. -/
theorem keep_v25_2_1 : W2 m ρ c (Proc.devRef .tc main_v25) = W1 m ρ c (Proc.devRef .tc main_v25) := by
  exact (W2_of_ne m ρ c _ (by decide))

/-- The edge coefficients are as the first stretch left them when the second layer gathers. -/
theorem keep_v25_6_1 : W6 m ρ c (Proc.devRef .tc main_v25) = W1 m ρ c (Proc.devRef .tc main_v25) := by
  refine (W6_of_ne m ρ c _ (by decide)).trans ?_
  refine (show W5 m ρ c (Proc.devRef .tc main_v25) = W4 m ρ c (Proc.devRef .tc main_v25) from by dsimp only [W5, hostOps2]; after_results).trans ?_
  refine (W4_of_ne m ρ c _ (by decide)).trans ?_
  refine (show W3 m ρ c (Proc.devRef .tc main_v25) = W2 m ρ c (Proc.devRef .tc main_v25) from by dsimp only [W3, hostOps1]; after_results).trans ?_
  exact (W2_of_ne m ρ c _ (by decide))

/-- The edge coefficients are as the first stretch left them when the third layer gathers. -/
theorem keep_v25_10_1 : W10 m ρ c (Proc.devRef .tc main_v25) = W1 m ρ c (Proc.devRef .tc main_v25) := by
  refine (W10_of_ne m ρ c _ (by decide)).trans ?_
  refine (show W9 m ρ c (Proc.devRef .tc main_v25) = W8 m ρ c (Proc.devRef .tc main_v25) from by dsimp only [W9, hostOps4]; after_results).trans ?_
  refine (W8_of_ne m ρ c _ (by decide)).trans ?_
  refine (show W7 m ρ c (Proc.devRef .tc main_v25) = W6 m ρ c (Proc.devRef .tc main_v25) from by dsimp only [W7, hostOps3]; after_results).trans ?_
  refine (W6_of_ne m ρ c _ (by decide)).trans ?_
  refine (show W5 m ρ c (Proc.devRef .tc main_v25) = W4 m ρ c (Proc.devRef .tc main_v25) from by dsimp only [W5, hostOps2]; after_results).trans ?_
  refine (W4_of_ne m ρ c _ (by decide)).trans ?_
  refine (show W3 m ρ c (Proc.devRef .tc main_v25) = W2 m ρ c (Proc.devRef .tc main_v25) from by dsimp only [W3, hostOps1]; after_results).trans ?_
  exact (W2_of_ne m ρ c _ (by decide))

/-- The squared inverse root degrees reach the first layer's closing step unchanged. -/
theorem keep_v28_3_1 : W3 m ρ c (Proc.devRef .tc main_v28) = W1 m ρ c (Proc.devRef .tc main_v28) := by
  refine (show W3 m ρ c (Proc.devRef .tc main_v28) = W2 m ρ c (Proc.devRef .tc main_v28) from by dsimp only [W3, hostOps1]; after_results).trans ?_
  exact (W2_of_ne m ρ c _ (by decide))

/-- The squared inverse root degrees reach the second layer's closing step unchanged (the first layer's closing step only reads them). -/
theorem keep_v28_7_1 : W7 m ρ c (Proc.devRef .tc main_v28) = W1 m ρ c (Proc.devRef .tc main_v28) := by
  refine (show W7 m ρ c (Proc.devRef .tc main_v28) = W6 m ρ c (Proc.devRef .tc main_v28) from by dsimp only [W7, hostOps3]; after_results).trans ?_
  refine (W6_of_ne m ρ c _ (by decide)).trans ?_
  refine (show W5 m ρ c (Proc.devRef .tc main_v28) = W4 m ρ c (Proc.devRef .tc main_v28) from by dsimp only [W5, hostOps2]; after_results).trans ?_
  refine ((W4_arr m ρ c 2).trans (((dat1 (V3 m ρ) c).arrAt_in 2 rfl _).trans (A_eq1 (V3 m ρ) c 2))).trans ?_
  refine (show W3 m ρ c (Proc.devRef .tc main_v28) = W2 m ρ c (Proc.devRef .tc main_v28) from by dsimp only [W3, hostOps1]; after_results).trans ?_
  exact (W2_of_ne m ρ c _ (by decide))

/-- The squared inverse root degrees reach the third layer's closing step unchanged (the earlier closing steps only read them). -/
theorem keep_v28_11_1 : W11 m ρ c (Proc.devRef .tc main_v28) = W1 m ρ c (Proc.devRef .tc main_v28) := by
  refine (show W11 m ρ c (Proc.devRef .tc main_v28) = W10 m ρ c (Proc.devRef .tc main_v28) from by dsimp only [W11, hostOps5]; after_results).trans ?_
  refine (W10_of_ne m ρ c _ (by decide)).trans ?_
  refine (show W9 m ρ c (Proc.devRef .tc main_v28) = W8 m ρ c (Proc.devRef .tc main_v28) from by dsimp only [W9, hostOps4]; after_results).trans ?_
  refine ((W8_arr m ρ c 2).trans (((dat3 (V7 m ρ) c).arrAt_in 2 rfl _).trans (A_eq3 (V7 m ρ) c 2))).trans ?_
  refine (show W7 m ρ c (Proc.devRef .tc main_v28) = W6 m ρ c (Proc.devRef .tc main_v28) from by dsimp only [W7, hostOps3]; after_results).trans ?_
  refine (W6_of_ne m ρ c _ (by decide)).trans ?_
  refine (show W5 m ρ c (Proc.devRef .tc main_v28) = W4 m ρ c (Proc.devRef .tc main_v28) from by dsimp only [W5, hostOps2]; after_results).trans ?_
  refine ((W4_arr m ρ c 2).trans (((dat1 (V3 m ρ) c).arrAt_in 2 rfl _).trans (A_eq1 (V3 m ρ) c 2))).trans ?_
  refine (show W3 m ρ c (Proc.devRef .tc main_v28) = W2 m ρ c (Proc.devRef .tc main_v28) from by dsimp only [W3, hostOps1]; after_results).trans ?_
  exact (W2_of_ne m ρ c _ (by decide))

/-- The first layer's bias row reaches its closing step unchanged. -/
theorem keep_v33_3_1 : W3 m ρ c (Proc.devRef .tc main_v33) = W1 m ρ c (Proc.devRef .tc main_v33) := by
  refine (show W3 m ρ c (Proc.devRef .tc main_v33) = W2 m ρ c (Proc.devRef .tc main_v33) from by dsimp only [W3, hostOps1]; after_results).trans ?_
  exact (W2_of_ne m ρ c _ (by decide))

/-- The second layer's bias row reaches its closing step unchanged. -/
theorem keep_v53_7_5 : W7 m ρ c (Proc.devRef .tc main_v53) = W5 m ρ c (Proc.devRef .tc main_v53) := by
  refine (show W7 m ρ c (Proc.devRef .tc main_v53) = W6 m ρ c (Proc.devRef .tc main_v53) from by dsimp only [W7, hostOps3]; after_results).trans ?_
  exact (W6_of_ne m ρ c _ (by decide))

/-- The third layer's bias row reaches its closing step unchanged. -/
theorem keep_v73_11_9 : W11 m ρ c (Proc.devRef .tc main_v73) = W9 m ρ c (Proc.devRef .tc main_v73) := by
  refine (show W11 m ρ c (Proc.devRef .tc main_v73) = W10 m ρ c (Proc.devRef .tc main_v73) from by dsimp only [W11, hostOps5]; after_results).trans ?_
  exact (W10_of_ne m ρ c _ (by decide))

/-- The first layer's transformed features reach its closing step unchanged. -/
theorem keep_v34_3_2 : W3 m ρ c (Proc.devRef .tc main_v34) = W2 m ρ c (Proc.devRef .tc main_v34) := by
  exact (show W3 m ρ c (Proc.devRef .tc main_v34) = W2 m ρ c (Proc.devRef .tc main_v34) from by dsimp only [W3, hostOps1]; after_results)

/-- The second layer's transformed features reach its closing step unchanged. -/
theorem keep_v54_7_6 : W7 m ρ c (Proc.devRef .tc main_v54) = W6 m ρ c (Proc.devRef .tc main_v54) := by
  exact (show W7 m ρ c (Proc.devRef .tc main_v54) = W6 m ρ c (Proc.devRef .tc main_v54) from by dsimp only [W7, hostOps3]; after_results)

/-- The third layer's transformed features reach its closing step unchanged. -/
theorem keep_v74_11_10 : W11 m ρ c (Proc.devRef .tc main_v74) = W10 m ρ c (Proc.devRef .tc main_v74) := by
  exact (show W11 m ρ c (Proc.devRef .tc main_v74) = W10 m ρ c (Proc.devRef .tc main_v74) from by dsimp only [W11, hostOps5]; after_results)

/-- The first layer's output reaches the second layer's transform unchanged. -/
theorem keep_v48_5_4 : W5 m ρ c (Proc.devRef .tc main_v48) = W4 m ρ c (Proc.devRef .tc main_v48) := by
  exact (show W5 m ρ c (Proc.devRef .tc main_v48) = W4 m ρ c (Proc.devRef .tc main_v48) from by dsimp only [W5, hostOps2]; after_results)

/-- The second layer's output reaches the third layer's transform unchanged. -/
theorem keep_v68_9_8 : W9 m ρ c (Proc.devRef .tc main_v68) = W8 m ρ c (Proc.devRef .tc main_v68) := by
  exact (show W9 m ρ c (Proc.devRef .tc main_v68) = W8 m ρ c (Proc.devRef .tc main_v68) from by dsimp only [W9, hostOps4]; after_results)

/-- The node features are the launch's when the first transform reads them. -/
theorem keep_arg0_1_0 : W1 m ρ c (Proc.devRef .tc main_arg0) = W0 m ρ c (Proc.devRef .tc main_arg0) := by
  exact (show W1 m ρ c (Proc.devRef .tc main_arg0) = W0 m ρ c (Proc.devRef .tc main_arg0) from by dsimp only [W1, hostOps0]; after_results)

/-- The weights are the launch's when the second layer slices them. -/
theorem keep_arg3_4_0 : W4 m ρ c (Proc.devRef .tc main_arg3) = W0 m ρ c (Proc.devRef .tc main_arg3) := by
  refine (W4_of_ne m ρ c _ (by decide)).trans ?_
  refine (show W3 m ρ c (Proc.devRef .tc main_arg3) = W2 m ρ c (Proc.devRef .tc main_arg3) from by dsimp only [W3, hostOps1]; after_results).trans ?_
  refine (W2_of_ne m ρ c _ (by decide)).trans ?_
  exact (show W1 m ρ c (Proc.devRef .tc main_arg3) = W0 m ρ c (Proc.devRef .tc main_arg3) from by dsimp only [W1, hostOps0]; after_results)

/-- The weights are the launch's when the third layer slices them. -/
theorem keep_arg3_8_0 : W8 m ρ c (Proc.devRef .tc main_arg3) = W0 m ρ c (Proc.devRef .tc main_arg3) := by
  refine (W8_of_ne m ρ c _ (by decide)).trans ?_
  refine (show W7 m ρ c (Proc.devRef .tc main_arg3) = W6 m ρ c (Proc.devRef .tc main_arg3) from by dsimp only [W7, hostOps3]; after_results).trans ?_
  refine (W6_of_ne m ρ c _ (by decide)).trans ?_
  refine (show W5 m ρ c (Proc.devRef .tc main_arg3) = W4 m ρ c (Proc.devRef .tc main_arg3) from by dsimp only [W5, hostOps2]; after_results).trans ?_
  refine (W4_of_ne m ρ c _ (by decide)).trans ?_
  refine (show W3 m ρ c (Proc.devRef .tc main_arg3) = W2 m ρ c (Proc.devRef .tc main_arg3) from by dsimp only [W3, hostOps1]; after_results).trans ?_
  refine (W2_of_ne m ρ c _ (by decide)).trans ?_
  exact (show W1 m ρ c (Proc.devRef .tc main_arg3) = W0 m ρ c (Proc.devRef .tc main_arg3) from by dsimp only [W1, hostOps0]; after_results)

/-- The biases are the launch's when the second layer slices them. -/
theorem keep_arg4_4_0 : W4 m ρ c (Proc.devRef .tc main_arg4) = W0 m ρ c (Proc.devRef .tc main_arg4) := by
  refine (W4_of_ne m ρ c _ (by decide)).trans ?_
  refine (show W3 m ρ c (Proc.devRef .tc main_arg4) = W2 m ρ c (Proc.devRef .tc main_arg4) from by dsimp only [W3, hostOps1]; after_results).trans ?_
  refine (W2_of_ne m ρ c _ (by decide)).trans ?_
  exact (show W1 m ρ c (Proc.devRef .tc main_arg4) = W0 m ρ c (Proc.devRef .tc main_arg4) from by dsimp only [W1, hostOps0]; after_results)

/-- The biases are the launch's when the third layer slices them. -/
theorem keep_arg4_8_0 : W8 m ρ c (Proc.devRef .tc main_arg4) = W0 m ρ c (Proc.devRef .tc main_arg4) := by
  refine (W8_of_ne m ρ c _ (by decide)).trans ?_
  refine (show W7 m ρ c (Proc.devRef .tc main_arg4) = W6 m ρ c (Proc.devRef .tc main_arg4) from by dsimp only [W7, hostOps3]; after_results).trans ?_
  refine (W6_of_ne m ρ c _ (by decide)).trans ?_
  refine (show W5 m ρ c (Proc.devRef .tc main_arg4) = W4 m ρ c (Proc.devRef .tc main_arg4) from by dsimp only [W5, hostOps2]; after_results).trans ?_
  refine (W4_of_ne m ρ c _ (by decide)).trans ?_
  refine (show W3 m ρ c (Proc.devRef .tc main_arg4) = W2 m ρ c (Proc.devRef .tc main_arg4) from by dsimp only [W3, hostOps1]; after_results).trans ?_
  refine (W2_of_ne m ρ c _ (by decide)).trans ?_
  exact (show W1 m ρ c (Proc.devRef .tc main_arg4) = W0 m ρ c (Proc.devRef .tc main_arg4) from by dsimp only [W1, hostOps0]; after_results)

/-- This argument is the launch's when the closing host operations read it. -/
theorem keep_arg2_12_0 : W12 m ρ c (Proc.devRef .tc main_arg2) = W0 m ρ c (Proc.devRef .tc main_arg2) := by
  refine (W12_of_ne m ρ c _ (by decide)).trans ?_
  refine (show W11 m ρ c (Proc.devRef .tc main_arg2) = W10 m ρ c (Proc.devRef .tc main_arg2) from by dsimp only [W11, hostOps5]; after_results).trans ?_
  refine (W10_of_ne m ρ c _ (by decide)).trans ?_
  refine (show W9 m ρ c (Proc.devRef .tc main_arg2) = W8 m ρ c (Proc.devRef .tc main_arg2) from by dsimp only [W9, hostOps4]; after_results).trans ?_
  refine (W8_of_ne m ρ c _ (by decide)).trans ?_
  refine (show W7 m ρ c (Proc.devRef .tc main_arg2) = W6 m ρ c (Proc.devRef .tc main_arg2) from by dsimp only [W7, hostOps3]; after_results).trans ?_
  refine (W6_of_ne m ρ c _ (by decide)).trans ?_
  refine (show W5 m ρ c (Proc.devRef .tc main_arg2) = W4 m ρ c (Proc.devRef .tc main_arg2) from by dsimp only [W5, hostOps2]; after_results).trans ?_
  refine (W4_of_ne m ρ c _ (by decide)).trans ?_
  refine (show W3 m ρ c (Proc.devRef .tc main_arg2) = W2 m ρ c (Proc.devRef .tc main_arg2) from by dsimp only [W3, hostOps1]; after_results).trans ?_
  refine (W2_of_ne m ρ c _ (by decide)).trans ?_
  exact (show W1 m ρ c (Proc.devRef .tc main_arg2) = W0 m ρ c (Proc.devRef .tc main_arg2) from by dsimp only [W1, hostOps0]; after_results)

/-- This argument is the launch's when the closing host operations read it. -/
theorem keep_arg5_12_0 : W12 m ρ c (Proc.devRef .tc main_arg5) = W0 m ρ c (Proc.devRef .tc main_arg5) := by
  refine (W12_of_ne m ρ c _ (by decide)).trans ?_
  refine (show W11 m ρ c (Proc.devRef .tc main_arg5) = W10 m ρ c (Proc.devRef .tc main_arg5) from by dsimp only [W11, hostOps5]; after_results).trans ?_
  refine (W10_of_ne m ρ c _ (by decide)).trans ?_
  refine (show W9 m ρ c (Proc.devRef .tc main_arg5) = W8 m ρ c (Proc.devRef .tc main_arg5) from by dsimp only [W9, hostOps4]; after_results).trans ?_
  refine (W8_of_ne m ρ c _ (by decide)).trans ?_
  refine (show W7 m ρ c (Proc.devRef .tc main_arg5) = W6 m ρ c (Proc.devRef .tc main_arg5) from by dsimp only [W7, hostOps3]; after_results).trans ?_
  refine (W6_of_ne m ρ c _ (by decide)).trans ?_
  refine (show W5 m ρ c (Proc.devRef .tc main_arg5) = W4 m ρ c (Proc.devRef .tc main_arg5) from by dsimp only [W5, hostOps2]; after_results).trans ?_
  refine (W4_of_ne m ρ c _ (by decide)).trans ?_
  refine (show W3 m ρ c (Proc.devRef .tc main_arg5) = W2 m ρ c (Proc.devRef .tc main_arg5) from by dsimp only [W3, hostOps1]; after_results).trans ?_
  refine (W2_of_ne m ρ c _ (by decide)).trans ?_
  exact (show W1 m ρ c (Proc.devRef .tc main_arg5) = W0 m ρ c (Proc.devRef .tc main_arg5) from by dsimp only [W1, hostOps0]; after_results)

/-- This argument is the launch's when the closing host operations read it. -/
theorem keep_arg6_12_0 : W12 m ρ c (Proc.devRef .tc main_arg6) = W0 m ρ c (Proc.devRef .tc main_arg6) := by
  refine (W12_of_ne m ρ c _ (by decide)).trans ?_
  refine (show W11 m ρ c (Proc.devRef .tc main_arg6) = W10 m ρ c (Proc.devRef .tc main_arg6) from by dsimp only [W11, hostOps5]; after_results).trans ?_
  refine (W10_of_ne m ρ c _ (by decide)).trans ?_
  refine (show W9 m ρ c (Proc.devRef .tc main_arg6) = W8 m ρ c (Proc.devRef .tc main_arg6) from by dsimp only [W9, hostOps4]; after_results).trans ?_
  refine (W8_of_ne m ρ c _ (by decide)).trans ?_
  refine (show W7 m ρ c (Proc.devRef .tc main_arg6) = W6 m ρ c (Proc.devRef .tc main_arg6) from by dsimp only [W7, hostOps3]; after_results).trans ?_
  refine (W6_of_ne m ρ c _ (by decide)).trans ?_
  refine (show W5 m ρ c (Proc.devRef .tc main_arg6) = W4 m ρ c (Proc.devRef .tc main_arg6) from by dsimp only [W5, hostOps2]; after_results).trans ?_
  refine (W4_of_ne m ρ c _ (by decide)).trans ?_
  refine (show W3 m ρ c (Proc.devRef .tc main_arg6) = W2 m ρ c (Proc.devRef .tc main_arg6) from by dsimp only [W3, hostOps1]; after_results).trans ?_
  refine (W2_of_ne m ρ c _ (by decide)).trans ?_
  exact (show W1 m ρ c (Proc.devRef .tc main_arg6) = W0 m ρ c (Proc.devRef .tc main_arg6) from by dsimp only [W1, hostOps0]; after_results)

/-- This argument is the launch's when the closing host operations read it. -/
theorem keep_arg7_12_0 : W12 m ρ c (Proc.devRef .tc main_arg7) = W0 m ρ c (Proc.devRef .tc main_arg7) := by
  refine (W12_of_ne m ρ c _ (by decide)).trans ?_
  refine (show W11 m ρ c (Proc.devRef .tc main_arg7) = W10 m ρ c (Proc.devRef .tc main_arg7) from by dsimp only [W11, hostOps5]; after_results).trans ?_
  refine (W10_of_ne m ρ c _ (by decide)).trans ?_
  refine (show W9 m ρ c (Proc.devRef .tc main_arg7) = W8 m ρ c (Proc.devRef .tc main_arg7) from by dsimp only [W9, hostOps4]; after_results).trans ?_
  refine (W8_of_ne m ρ c _ (by decide)).trans ?_
  refine (show W7 m ρ c (Proc.devRef .tc main_arg7) = W6 m ρ c (Proc.devRef .tc main_arg7) from by dsimp only [W7, hostOps3]; after_results).trans ?_
  refine (W6_of_ne m ρ c _ (by decide)).trans ?_
  refine (show W5 m ρ c (Proc.devRef .tc main_arg7) = W4 m ρ c (Proc.devRef .tc main_arg7) from by dsimp only [W5, hostOps2]; after_results).trans ?_
  refine (W4_of_ne m ρ c _ (by decide)).trans ?_
  refine (show W3 m ρ c (Proc.devRef .tc main_arg7) = W2 m ρ c (Proc.devRef .tc main_arg7) from by dsimp only [W3, hostOps1]; after_results).trans ?_
  refine (W2_of_ne m ρ c _ (by decide)).trans ?_
  exact (show W1 m ρ c (Proc.devRef .tc main_arg7) = W0 m ρ c (Proc.devRef .tc main_arg7) from by dsimp only [W1, hostOps0]; after_results)

/-- This argument is the launch's when the closing host operations read it. -/
theorem keep_arg8_12_0 : W12 m ρ c (Proc.devRef .tc main_arg8) = W0 m ρ c (Proc.devRef .tc main_arg8) := by
  refine (W12_of_ne m ρ c _ (by decide)).trans ?_
  refine (show W11 m ρ c (Proc.devRef .tc main_arg8) = W10 m ρ c (Proc.devRef .tc main_arg8) from by dsimp only [W11, hostOps5]; after_results).trans ?_
  refine (W10_of_ne m ρ c _ (by decide)).trans ?_
  refine (show W9 m ρ c (Proc.devRef .tc main_arg8) = W8 m ρ c (Proc.devRef .tc main_arg8) from by dsimp only [W9, hostOps4]; after_results).trans ?_
  refine (W8_of_ne m ρ c _ (by decide)).trans ?_
  refine (show W7 m ρ c (Proc.devRef .tc main_arg8) = W6 m ρ c (Proc.devRef .tc main_arg8) from by dsimp only [W7, hostOps3]; after_results).trans ?_
  refine (W6_of_ne m ρ c _ (by decide)).trans ?_
  refine (show W5 m ρ c (Proc.devRef .tc main_arg8) = W4 m ρ c (Proc.devRef .tc main_arg8) from by dsimp only [W5, hostOps2]; after_results).trans ?_
  refine (W4_of_ne m ρ c _ (by decide)).trans ?_
  refine (show W3 m ρ c (Proc.devRef .tc main_arg8) = W2 m ρ c (Proc.devRef .tc main_arg8) from by dsimp only [W3, hostOps1]; after_results).trans ?_
  refine (W2_of_ne m ρ c _ (by decide)).trans ?_
  exact (show W1 m ρ c (Proc.devRef .tc main_arg8) = W0 m ρ c (Proc.devRef .tc main_arg8) from by dsimp only [W1, hostOps0]; after_results)

/-- This argument is the launch's when the closing host operations read it. -/
theorem keep_arg9_12_0 : W12 m ρ c (Proc.devRef .tc main_arg9) = W0 m ρ c (Proc.devRef .tc main_arg9) := by
  refine (W12_of_ne m ρ c _ (by decide)).trans ?_
  refine (show W11 m ρ c (Proc.devRef .tc main_arg9) = W10 m ρ c (Proc.devRef .tc main_arg9) from by dsimp only [W11, hostOps5]; after_results).trans ?_
  refine (W10_of_ne m ρ c _ (by decide)).trans ?_
  refine (show W9 m ρ c (Proc.devRef .tc main_arg9) = W8 m ρ c (Proc.devRef .tc main_arg9) from by dsimp only [W9, hostOps4]; after_results).trans ?_
  refine (W8_of_ne m ρ c _ (by decide)).trans ?_
  refine (show W7 m ρ c (Proc.devRef .tc main_arg9) = W6 m ρ c (Proc.devRef .tc main_arg9) from by dsimp only [W7, hostOps3]; after_results).trans ?_
  refine (W6_of_ne m ρ c _ (by decide)).trans ?_
  refine (show W5 m ρ c (Proc.devRef .tc main_arg9) = W4 m ρ c (Proc.devRef .tc main_arg9) from by dsimp only [W5, hostOps2]; after_results).trans ?_
  refine (W4_of_ne m ρ c _ (by decide)).trans ?_
  refine (show W3 m ρ c (Proc.devRef .tc main_arg9) = W2 m ρ c (Proc.devRef .tc main_arg9) from by dsimp only [W3, hostOps1]; after_results).trans ?_
  refine (W2_of_ne m ρ c _ (by decide)).trans ?_
  exact (show W1 m ρ c (Proc.devRef .tc main_arg9) = W0 m ρ c (Proc.devRef .tc main_arg9) from by dsimp only [W1, hostOps0]; after_results)

/-- This argument is the launch's when the closing host operations read it. -/
theorem keep_arg10_12_0 : W12 m ρ c (Proc.devRef .tc main_arg10) = W0 m ρ c (Proc.devRef .tc main_arg10) := by
  refine (W12_of_ne m ρ c _ (by decide)).trans ?_
  refine (show W11 m ρ c (Proc.devRef .tc main_arg10) = W10 m ρ c (Proc.devRef .tc main_arg10) from by dsimp only [W11, hostOps5]; after_results).trans ?_
  refine (W10_of_ne m ρ c _ (by decide)).trans ?_
  refine (show W9 m ρ c (Proc.devRef .tc main_arg10) = W8 m ρ c (Proc.devRef .tc main_arg10) from by dsimp only [W9, hostOps4]; after_results).trans ?_
  refine (W8_of_ne m ρ c _ (by decide)).trans ?_
  refine (show W7 m ρ c (Proc.devRef .tc main_arg10) = W6 m ρ c (Proc.devRef .tc main_arg10) from by dsimp only [W7, hostOps3]; after_results).trans ?_
  refine (W6_of_ne m ρ c _ (by decide)).trans ?_
  refine (show W5 m ρ c (Proc.devRef .tc main_arg10) = W4 m ρ c (Proc.devRef .tc main_arg10) from by dsimp only [W5, hostOps2]; after_results).trans ?_
  refine (W4_of_ne m ρ c _ (by decide)).trans ?_
  refine (show W3 m ρ c (Proc.devRef .tc main_arg10) = W2 m ρ c (Proc.devRef .tc main_arg10) from by dsimp only [W3, hostOps1]; after_results).trans ?_
  refine (W2_of_ne m ρ c _ (by decide)).trans ?_
  exact (show W1 m ρ c (Proc.devRef .tc main_arg10) = W0 m ρ c (Proc.devRef .tc main_arg10) from by dsimp only [W1, hostOps0]; after_results)

/-! ## What the first host stretch computes -/

/-- The edges' source nodes: row 0 of the edge list. -/
theorem src_nodes : W1 m ρ c (Proc.devRef .tc main_v1)
    = val_main_v1 (F := Ideal) (m ((c : Thread nD τ).loc main_arg1)) := by
  dsimp only [W1, hostOps0]; after_results_simp <;> rfl

/-- The edges' target nodes: row 1 of the edge list. -/
theorem dst_nodes : W1 m ρ c (Proc.devRef .tc main_v3)
    = val_main_v3 (F := Ideal) (m ((c : Thread nD τ).loc main_arg1)) := by
  dsimp only [W1, hostOps0]; after_results_simp <;> rfl

/-- Each edge's coefficient: the inverse root degree of its source times that of its target. -/
theorem edge_coef : W1 m ρ c (Proc.devRef .tc main_v25)
    = val_main_v30 (F := Ideal) (m ((c : Thread nD τ).loc main_arg1)) := by
  dsimp only [W1, hostOps0]; after_results_simp <;> rfl

/-- Each node's squared inverse root degree, spread over the feature axis. -/
theorem inv_degree : W1 m ρ c (Proc.devRef .tc main_v28)
    = val_main_v46 (F := Ideal) (m ((c : Thread nD τ).loc main_arg1)) := by
  dsimp only [W1, hostOps0]; after_results_simp <;> rfl

/-- The first layer's weight matrix: slice 0 of the weights. -/
theorem weight_first : W1 m ρ c (Proc.devRef .tc main_v30)
    = val_main_v5 (F := Ideal) (m ((c : Thread nD τ).loc main_arg3)) := by
  dsimp only [W1, hostOps0]; after_results_simp <;> rfl

/-- A vector of 128 recast as one row of 128 has the vector's entry q at (0, q). -/
theorem row_of_vector (v : SV.Idx → EReal) (h : SV.ShapeCasts SB) : shapeCast SB v h = biasRow v := by
  funext j
  unfold biasRow
  exact shapeCast_apply v h j _ (by
    rewrite [Shape.rowMajor_val_one, Shape.rowMajor_val_two]
    have h0 : (j 0).val < 1 := (j 0).isLt
    show (j 1).val = (j 0).val * 128 + (j 1).val
    omega)

/-- The first layer's bias as a row: slice 0 of the biases. -/
theorem bias_first : W1 m ρ c (Proc.devRef .tc main_v33)
    = biasRow (val_main_v7 (F := Ideal) (m ((c : Thread nD τ).loc main_arg4))) := by
  refine Eq.trans ?_ (row_of_vector _ shapeCasts_S128_S1x128)
  dsimp only [W1, hostOps0]; after_results_simp <;> rfl

end Cert.KernelIdeal.Boundary

end
-- ==== Proof.MatmulRegion.lean ====
/-
  The dense transform of a graph-convolution layer, read off the tiled program.

  The [50000,128] feature array is cut into ten blocks of 5000 consecutive rows; block t holds rows
  t·5000 … t·5000 + 4999, every column. The [128,128] weight is one block, present whole at every point. At point t
  the body multiplies block t of the features by the weight and writes the product to block t of the output.

  Entry (p, q) of that block product is the sum over k of xblock[p, k] · w[k, q]: it needs row p of the block only —
  that is row t·5000 + p of the feature array — and column q of the weight. So what point t writes back is block t
  of ONE function of the two arrays, entry (r, q) ↦ Σ_k x[r, k] · w[k, q]; the ten blocks cover every row
  (row r lies in block r / 5000), hence after the last point the output array is that function.
-/
import proofs.«144507_j55997783605447_1_alg».proof.Proof.Gen.KernelIdeal.Frame
import proofs.«144507_j55997783605447_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulRegion

open Cert.KernelIdeal Cert.KernelIdeal.Gen Idealize.ShloMosaic Idealize.ShloMosaic.TcCoe Idealize.ShloMosaic.ValueIdx
open Idealize.ShloMosaic.Pipeline (Dat)

/-! ## The product of one block with the weight, entry by entry -/

/-- The dimension numbers of the block product: rows × contraction times contraction × columns. -/
abbrev blockDot : DotDims S5000x128 S128x128 S5000x128 := dot_S5000x128_S128x128_S5000x128_1_0_0_1_n_n

/-- The left operand is read in the output's row, -/
theorem lhs_row (j : S5000x128.Idx) (k : blockDot.contr.Idx) : (blockDot.lhsIdx j k 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
/-- at the contraction position; -/
theorem lhs_col (j : S5000x128.Idx) (k : blockDot.contr.Idx) : (blockDot.lhsIdx j k 1).val = (k ⟨0, by decide⟩).val :=
  blockDot.lhsIdx_val_of_single rfl j k
/-- the right operand at the contraction position, -/
theorem rhs_row (j : S5000x128.Idx) (k : blockDot.contr.Idx) : (blockDot.rhsIdx j k 0).val = (k ⟨0, by decide⟩).val :=
  blockDot.rhsIdx_val_of_single rfl j k
/-- in the output's column. -/
theorem rhs_col (j : S5000x128.Idx) (k : blockDot.contr.Idx) : (blockDot.rhsIdx j k 1).val = (j 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The product into a zero accumulator, at entry (p, q): the sum over k of l[p, k] · r[k, q]. -/
theorem product_apply (l : FVec Ideal S5000x128 .bf16) (r : FVec Ideal S128x128 .bf16) (p : Fin 5000) (q : Fin 128) :
    matmul blockDot none l r (constant (F := Ideal) S5000x128 .f32 0x00000000#32) (ix2 p q) = ∑ k : Fin 128, l (ix2 p k) * r (ix2 k q) := by
  refine (Ideal.matmul_constant_zero_apply blockDot none l r (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's stored value at entry (p, q) of its block: the change of float format and the cast to the same shape
    change nothing on the extended reals. -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  rw [shapeCast_self]
  exact product_apply _ _ p q

/-- The same for the later layers' transform, whose body casts the feature block to its own shape first. -/
theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  rw [shapeCast_self, shapeCast_self]
  exact product_apply _ _ p q

/-- Likewise for the third layer's transform. -/
theorem pay4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  unfold k4_pay1
  rw [shapeCast_self, shapeCast_self]
  exact product_apply _ _ p q

/-! ## Blocks and the array -/

/-- The zero offsets of a whole-block access, as a constant function. -/
theorem zero_offsets : (![0, 0] : Fin 2 → Nat) = fun _ => 0 := funext fun a => by fin_cases a <;> rfl

-- the buffer contents when a region is entered: every region's statement is at this parameter
variable (V : (c : Dev nD) → (b : Ref sig .tc) → Buf (Elt Ideal) ((c : Thread nD τ).loc b))

/-! # Region 0: the dense transform of `main_arg0` by `main_v30` -/

/-- Decided once over the ten points: the feature window's row block is the output window's; no window moves along
    the columns; the weight's block never moves; the row block index is at most 9. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto0 : ∀ b : Fin 10, ∃ t : Fin cfg0.N, win0_2.index t = ![b.val, 0] :=
  (by decide +kernel : ∀ b : Fin 10, ∃ t : Fin grid0.N, win0_2.index t = ![b.val, 0])

/-- The block product of block `t` of a feature array `A` with a weight `B` is block `t` of the whole product: entry
    (p, q) of the block is entry (t·5000 + p, q) of the array, and it reads row t·5000 + p of `A` and column q of `B`. -/
theorem block_eq0 (A : S50000x128.Idx → EReal) (B : S128x128.Idx → EReal) (t : Fin cfg0.N) :
    k0_pay1 (F := Ideal) (((cfg0.win 0).blk t).view.read (Elt Ideal) A) (((cfg0.win 1).blk t).view.read (Elt Ideal) B)
      = ((cfg0.win 2).blk t).view.read (Elt Ideal) (Cert.Spec.rowDot A B) := by
  obtain ⟨e0, e1, e2, e3, e4, e5⟩ := index_facts0 t
  funext j
  obtain ⟨p, q, rfl⟩ : ∃ (p : Fin 5000) (q : Fin 128), j = ix2 p q := ⟨j 0, j 1, eq_ix2 j⟩
  refine (pay0_apply _ _ p q).trans ?_
  show (∑ k : Fin 128, A (((cfg0.win 0).blk t).view.emb (ix2 p k)) * B (((cfg0.win 1).blk t).view.emb (ix2 k q)))
    = ∑ k : Fin 128, A (ix2 (⟨((((cfg0.win 2).blk t).view.emb (ix2 p q)) 0).val, idx2_lt0 _⟩ : Fin 50000) k)
      * B (ix2 k (⟨((((cfg0.win 2).blk t).view.emb (ix2 p q)) 1).val, idx2_lt1 _⟩ : Fin 128))
  refine Finset.sum_congr rfl fun k _ => ?_
  show A (((cfg0.win 0).blk t).view.emb (ix2 p k)) * B (((cfg0.win 1).blk t).view.emb (ix2 k q))
    = A (ix2 (⟨((((cfg0.win 2).blk t).view.emb (ix2 p q)) 0).val, idx2_lt0 _⟩ : Fin 50000) k)
      * B (ix2 k (⟨((((cfg0.win 2).blk t).view.emb (ix2 p q)) 1).val, idx2_lt1 _⟩ : Fin 128))
  have hA : ((cfg0.win 0).blk t).view.emb (ix2 p k)
      = ix2 (⟨((((cfg0.win 2).blk t).view.emb (ix2 p q)) 0).val, idx2_lt0 _⟩ : Fin 50000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hB : ((cfg0.win 1).blk t).view.emb (ix2 k q)
      = ix2 k (⟨((((cfg0.win 2).blk t).view.emb (ix2 p q)) 1).val, idx2_lt1 _⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hA, hB]

/-- What point `t` writes back to the output array is block `t` of the product of the two arrays as the region
    finds them. -/
theorem flushed0 (c : Dev nD) (t : Fin cfg0.N) :
    (dat0 (F := Ideal) V c).flushed 2 t
      = ((cfg0.win 2).blk t).view.read (Elt Ideal) (Cert.Spec.rowDot (V c main_arg0) (V c main_v30)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  exact block_eq0 (V c main_arg0) (V c main_v30) t

/-- An index of the output array is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The ten blocks cover the array: row r is in the block of the point whose row block index is r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region's last point the output array is the product, entry by entry. -/
theorem final0 (c : Dev nD) :
    (dat0 (F := Ideal) V c).arrAt 2 cfg0.N = Cert.Spec.rowDot (V c main_arg0) (V c main_v30) :=
  (dat0 V c).arrAt_eq_of_cover 2 (Cert.Spec.rowDot (V c main_arg0) (V c main_v30)) (fun t _ => flushed0 V c t) cover0

/-! # Region 2: the dense transform of `main_v48` by `main_v50` -/

/-- Decided once over the ten points: the feature window's row block is the output window's; no window moves along
    the columns; the weight's block never moves; the row block index is at most 9. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem index_onto2 : ∀ b : Fin 10, ∃ t : Fin cfg2.N, win2_2.index t = ![b.val, 0] :=
  (by decide +kernel : ∀ b : Fin 10, ∃ t : Fin grid2.N, win2_2.index t = ![b.val, 0])

/-- The block product of block `t` of a feature array `A` with a weight `B` is block `t` of the whole product: entry
    (p, q) of the block is entry (t·5000 + p, q) of the array, and it reads row t·5000 + p of `A` and column q of `B`. -/
theorem block_eq2 (A : S50000x128.Idx → EReal) (B : S128x128.Idx → EReal) (t : Fin cfg2.N) :
    k2_pay1 (F := Ideal) (((cfg2.win 0).blk t).view.read (Elt Ideal) A) (((cfg2.win 1).blk t).view.read (Elt Ideal) B)
      = ((cfg2.win 2).blk t).view.read (Elt Ideal) (Cert.Spec.rowDot A B) := by
  obtain ⟨e0, e1, e2, e3, e4, e5⟩ := index_facts2 t
  funext j
  obtain ⟨p, q, rfl⟩ : ∃ (p : Fin 5000) (q : Fin 128), j = ix2 p q := ⟨j 0, j 1, eq_ix2 j⟩
  refine (pay2_apply _ _ p q).trans ?_
  show (∑ k : Fin 128, A (((cfg2.win 0).blk t).view.emb (ix2 p k)) * B (((cfg2.win 1).blk t).view.emb (ix2 k q)))
    = ∑ k : Fin 128, A (ix2 (⟨((((cfg2.win 2).blk t).view.emb (ix2 p q)) 0).val, idx2_lt0 _⟩ : Fin 50000) k)
      * B (ix2 k (⟨((((cfg2.win 2).blk t).view.emb (ix2 p q)) 1).val, idx2_lt1 _⟩ : Fin 128))
  refine Finset.sum_congr rfl fun k _ => ?_
  show A (((cfg2.win 0).blk t).view.emb (ix2 p k)) * B (((cfg2.win 1).blk t).view.emb (ix2 k q))
    = A (ix2 (⟨((((cfg2.win 2).blk t).view.emb (ix2 p q)) 0).val, idx2_lt0 _⟩ : Fin 50000) k)
      * B (ix2 k (⟨((((cfg2.win 2).blk t).view.emb (ix2 p q)) 1).val, idx2_lt1 _⟩ : Fin 128))
  have hA : ((cfg2.win 0).blk t).view.emb (ix2 p k)
      = ix2 (⟨((((cfg2.win 2).blk t).view.emb (ix2 p q)) 0).val, idx2_lt0 _⟩ : Fin 50000) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hB : ((cfg2.win 1).blk t).view.emb (ix2 k q)
      = ix2 k (⟨((((cfg2.win 2).blk t).view.emb (ix2 p q)) 1).val, idx2_lt1 _⟩ : Fin 128) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hA, hB]

/-- What point `t` writes back to the output array is block `t` of the product of the two arrays as the region
    finds them. -/
theorem flushed2 (c : Dev nD) (t : Fin cfg2.N) :
    (dat2 (F := Ideal) V c).flushed 2 t
      = ((cfg2.win 2).blk t).view.read (Elt Ideal) (Cert.Spec.rowDot (V c main_v48) (V c main_v50)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  exact block_eq2 (V c main_v48) (V c main_v50) t

/-- An index of the output array is in point `t`'s block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- The ten blocks cover the array: row r is in the block of the point whose row block index is r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region's last point the output array is the product, entry by entry. -/
theorem final2 (c : Dev nD) :
    (dat2 (F := Ideal) V c).arrAt 2 cfg2.N = Cert.Spec.rowDot (V c main_v48) (V c main_v50) :=
  (dat2 V c).arrAt_eq_of_cover 2 (Cert.Spec.rowDot (V c main_v48) (V c main_v50)) (fun t _ => flushed2 V c t) cover2

/-! # Region 4: the dense transform of `main_v68` by `main_v70` -/

/-- Decided once over the ten points: the feature window's row block is the output window's; no window moves along
    the columns; the weight's block never moves; the row block index is at most 9. -/
theorem index_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks is some point's. -/
theorem index_onto4 : ∀ b : Fin 10, ∃ t : Fin cfg4.N, win4_2.index t = ![b.val, 0] :=
  (by decide +kernel : ∀ b : Fin 10, ∃ t : Fin grid4.N, win4_2.index t = ![b.val, 0])

/-- The block product of block `t` of a feature array `A` with a weight `B` is block `t` of the whole product: entry
    (p, q) of the block is entry (t·5000 + p, q) of the array, and it reads row t·5000 + p of `A` and column q of `B`. -/
theorem block_eq4 (A : S50000x128.Idx → EReal) (B : S128x128.Idx → EReal) (t : Fin cfg4.N) :
    k4_pay1 (F := Ideal) (((cfg4.win 0).blk t).view.read (Elt Ideal) A) (((cfg4.win 1).blk t).view.read (Elt Ideal) B)
      = ((cfg4.win 2).blk t).view.read (Elt Ideal) (Cert.Spec.rowDot A B) := by
  obtain ⟨e0, e1, e2, e3, e4, e5⟩ := index_facts4 t
  funext j
  obtain ⟨p, q, rfl⟩ : ∃ (p : Fin 5000) (q : Fin 128), j = ix2 p q := ⟨j 0, j 1, eq_ix2 j⟩
  refine (pay4_apply _ _ p q).trans ?_
  show (∑ k : Fin 128, A (((cfg4.win 0).blk t).view.emb (ix2 p k)) * B (((cfg4.win 1).blk t).view.emb (ix2 k q)))
    = ∑ k : Fin 128, A (ix2 (⟨((((cfg4.win 2).blk t).view.emb (ix2 p q)) 0).val, idx2_lt0 _⟩ : Fin 50000) k)
      * B (ix2 k (⟨((((cfg4.win 2).blk t).view.emb (ix2 p q)) 1).val, idx2_lt1 _⟩ : Fin 128))
  refine Finset.sum_congr rfl fun k _ => ?_
  show A (((cfg4.win 0).blk t).view.emb (ix2 p k)) * B (((cfg4.win 1).blk t).view.emb (ix2 k q))
    = A (ix2 (⟨((((cfg4.win 2).blk t).view.emb (ix2 p q)) 0).val, idx2_lt0 _⟩ : Fin 50000) k)
      * B (ix2 k (⟨((((cfg4.win 2).blk t).view.emb (ix2 p q)) 1).val, idx2_lt1 _⟩ : Fin 128))
  have hA : ((cfg4.win 0).blk t).view.emb (ix2 p k)
      = ix2 (⟨((((cfg4.win 2).blk t).view.emb (ix2 p q)) 0).val, idx2_lt0 _⟩ : Fin 50000) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have hB : ((cfg4.win 1).blk t).view.emb (ix2 k q)
      = ix2 k (⟨((((cfg4.win 2).blk t).view.emb (ix2 p q)) 1).val, idx2_lt1 _⟩ : Fin 128) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [hA, hB]

/-- What point `t` writes back to the output array is block `t` of the product of the two arrays as the region
    finds them. -/
theorem flushed4 (c : Dev nD) (t : Fin cfg4.N) :
    (dat4 (F := Ideal) V c).flushed 2 t
      = ((cfg4.win 2).blk t).view.read (Elt Ideal) (Cert.Spec.rowDot (V c main_v68) (V c main_v70)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  exact block_eq4 (V c main_v68) (V c main_v70) t

/-- An index of the output array is in point `t`'s block iff each coordinate is in the block's range on its axis. -/
theorem mem_block4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v74).slice (win4_2.rect t)).set ↔ _
  rw [View.set_slice_whole, Rect.mem_set_unit]
  exact Iff.rfl

/-- The ten blocks cover the array: row r is in the block of the point whose row block index is r / 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := index_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region's last point the output array is the product, entry by entry. -/
theorem final4 (c : Dev nD) :
    (dat4 (F := Ideal) V c).arrAt 2 cfg4.N = Cert.Spec.rowDot (V c main_v68) (V c main_v70) :=
  (dat4 V c).arrAt_eq_of_cover 2 (Cert.Spec.rowDot (V c main_v68) (V c main_v70)) (fun t _ => flushed4 V c t) cover4

end Cert.KernelIdeal.MatmulRegion

end
-- ==== Proof.CombineRegion.lean ====
/-
  The closing step of each of the three graph-convolution layers, read off the tiled program as one function of whole
  arrays.

  Each closing region walks the 50000 × 128 arrays in ten blocks of 5000 rows. At point t it holds row block t of the
  transformed features h, of the neighbours' sum agg and of the inverse degrees d — rows 5000·t … 5000·t + 4999, all 128
  columns — together with the whole 1 × 128 bias row b, and writes row block t of the result. The arithmetic is
  pointwise: entry (p, q) of the block written at point t is max (agg + h · d + b, 0) taken at entry (p, q) of the three
  input blocks and at entry (0, q) of the bias row. Entry (p, q) of block t of an array is entry (5000·t + p, q) of the
  array itself, for inputs and output alike, so entry (r, q) of the result depends only on entry (r, q) of h, agg and d
  and on b[0, q]: the written block is block t of the closing step of the whole arrays. The ten row blocks cover every
  row (row r lies in block r / 5000), hence after the last point the output array is the closing step of the arrays
  the region found — the tiling leaves no trace.
-/
import proofs.«144507_j55997783605447_1_alg».proof.Proof.Gen.KernelIdeal.Frame
import proofs.«144507_j55997783605447_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineRegion

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## What the three regions share -/

/-- The two zero offsets of a whole-block access, spelt as a constant function. -/
theorem zero_offsets : (![0, 0] : Fin 2 → Nat) = fun _ => 0 := funext fun a => by fin_cases a <;> rfl

/-- The closing step at one entry of the whole arrays, from the four numbers it reads: entry `i` of the neighbours'
    sum, of the transformed features and of the inverse degrees, and the bias of `i`'s column. -/
theorem combine_entry (H A D : Cert.Spec.SN.Idx → EReal) (B : Cert.Spec.SB.Idx → EReal) (i : Cert.Spec.SN.Idx) (q : Fin 128)
    (a h d b : EReal) (ha : a = A i) (hh : h = H i) (hd : d = D i) (hb : b = B (ix2 (0 : Fin 1) q))
    (hq : (i 1).val = q.val) : max (a + h * d + b) 0 = Cert.Spec.combine H A D B i := by
  subst ha hh hd hb
  have e : (⟨(i 1).val, idx2_lt1 i⟩ : Fin 128) = q := Fin.ext hq
  unfold Cert.Spec.combine
  rw [e]

/-! ## The first layer's closing region -/

/-- The closing step's arithmetic at one entry of a block: entry (p, q) of the result reads entry (p, q) of the three
    row blocks and entry (0, q) of the bias row. -/
theorem payload1_apply (agg h d : Vec Ideal S5000x128 .f32) (b : Vec Ideal S1x128 .f32) (p : Fin 5000) (q : Fin 128) :
    k1_pay1 agg h d b (ix2 p q) = max (agg (ix2 p q) + h (ix2 p q) * d (ix2 p q) + b (ix2 (0 : Fin 1) q)) 0 := by
  unfold k1_pay1
  simp only [shapeCast_self]
  rw [maximumf_apply, addf_apply, addf_apply, mulf_apply, broadcast_apply, broadcastTo_1b_ab_apply]
  show max _ (Ideal.ofBits .f32 0x00000000#32) = _
  rw [Ideal.ofBits_zero_f32]

/-- The block index maps over the ten points: the three row-blocked inputs move with the output, whose block at point
    `t` is row block `t`, column block 0; the bias row's block never moves. -/
theorem index_maps1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = win1_4.index t (1 : Fin 2)
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the closing step of the whole arrays: entry (p, q) of a block at point
    `t` is entry (5000·t + p, q) of its array, for the three row-blocked inputs and the output alike, and the bias row's
    block is the whole row. -/
theorem flushed1_eq (c : Dev nD) (t : Fin cfg1.N) :
    (dat1 V c).flushed 4 t = ((cfg1.win 4).blk t).view.read (Elt Ideal)
      (Cert.Spec.combine (V c main_v34) (V c main_v47) (V c main_v28) (V c main_v33)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S1x128) zero_offsets]
  obtain ⟨e00, e01, e10, e11, e20, e21, e30, e31, e40, e41⟩ := index_maps1 t
  funext j
  obtain ⟨p, q, rfl⟩ : ∃ (p : Fin 5000) (q : Fin 128), j = ix2 p q := ⟨j 0, j 1, eq_ix2 j⟩
  show k1_pay1 (iblk1 V c 1 t) (iblk1 V c 0 t) (iblk1 V c 2 t) (iblk1 V c 3 t) (ix2 p q)
    = Cert.Spec.combine (V c main_v34) (V c main_v47) (V c main_v28) (V c main_v33) (((cfg1.win 4).blk t).view.emb (ix2 p q))
  rw [payload1_apply]
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 p q) = ((cfg1.win 4).blk t).view.emb (ix2 p q) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have hq : ((((cfg1.win 4).blk t).view.emb (ix2 p q)) 1).val = q.val := by
    show win1_4.index t (1 : Fin 2) * 128 + 1 * q.val = q.val; omega
  exact combine_entry _ _ _ _ _ q _ _ _ _ (congrArg (V c main_v47) h1) (congrArg (V c main_v34) h0)
    (congrArg (V c main_v28) h2) (congrArg (V c main_v33) h3) hq

/-- An index of the output array is in point `t`'s block iff each coordinate lies in the block's range on its axis. -/
theorem mem_block1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- Every entry of the output array lies in some point's block: row `r` in the block of point `r / 5000`. -/
theorem cover1 (i : S50000x128.Idx) : ∃ t : Fin cfg1.N, (cfg1.win 4).flush t = true ∧ i ∈ ((cfg1.win 4).blk t).view.set := by
  have hi0 : (i 0).val < 50000 := idx2_lt0 i
  have hi1 : (i 1).val < 128 := idx2_lt1 i
  have hN : cfg1.N = 10 := N_1
  have hlt : (i 0).val / 5000 < cfg1.N := by rw [hN]; omega
  obtain ⟨t, htv⟩ : ∃ t : Fin cfg1.N, t.val = (i 0).val / 5000 := ⟨⟨_, hlt⟩, rfl⟩
  obtain ⟨-, -, -, -, -, -, -, -, e40, e41⟩ := index_maps1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The first layer's output array after its closing region: the closing step of the arrays the region found. -/
theorem final1 (c : Dev nD) : (dat1 (F := Ideal) V c).arrAt 4 cfg1.N
    = Cert.Spec.combine (V c main_v34) (V c main_v47) (V c main_v28) (V c main_v33) :=
  (dat1 V c).arrAt_eq_of_cover 4 (Cert.Spec.combine (V c main_v34) (V c main_v47) (V c main_v28) (V c main_v33))
    (fun t _ => flushed1_eq V c t) cover1

/-! ## The second layer's closing region -/

/-- The closing step's arithmetic at one entry of a block: entry (p, q) of the result reads entry (p, q) of the three
    row blocks and entry (0, q) of the bias row. -/
theorem payload3_apply (agg h d : Vec Ideal S5000x128 .f32) (b : Vec Ideal S1x128 .f32) (p : Fin 5000) (q : Fin 128) :
    k3_pay1 agg h d b (ix2 p q) = max (agg (ix2 p q) + h (ix2 p q) * d (ix2 p q) + b (ix2 (0 : Fin 1) q)) 0 := by
  unfold k3_pay1
  simp only [shapeCast_self]
  rw [maximumf_apply, addf_apply, addf_apply, mulf_apply, broadcast_apply, broadcastTo_1b_ab_apply]
  show max _ (Ideal.ofBits .f32 0x00000000#32) = _
  rw [Ideal.ofBits_zero_f32]

/-- The block index maps over the ten points: the three row-blocked inputs move with the output, whose block at point
    `t` is row block `t`, column block 0; the bias row's block never moves. -/
theorem index_maps3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = win3_4.index t (1 : Fin 2)
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the closing step of the whole arrays: entry (p, q) of a block at point
    `t` is entry (5000·t + p, q) of its array, for the three row-blocked inputs and the output alike, and the bias row's
    block is the whole row. -/
theorem flushed3_eq (c : Dev nD) (t : Fin cfg3.N) :
    (dat3 V c).flushed 4 t = ((cfg3.win 4).blk t).view.read (Elt Ideal)
      (Cert.Spec.combine (V c main_v54) (V c main_v67) (V c main_v28) (V c main_v53)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S1x128) zero_offsets]
  obtain ⟨e00, e01, e10, e11, e20, e21, e30, e31, e40, e41⟩ := index_maps3 t
  funext j
  obtain ⟨p, q, rfl⟩ : ∃ (p : Fin 5000) (q : Fin 128), j = ix2 p q := ⟨j 0, j 1, eq_ix2 j⟩
  show k3_pay1 (iblk3 V c 1 t) (iblk3 V c 0 t) (iblk3 V c 2 t) (iblk3 V c 3 t) (ix2 p q)
    = Cert.Spec.combine (V c main_v54) (V c main_v67) (V c main_v28) (V c main_v53) (((cfg3.win 4).blk t).view.emb (ix2 p q))
  rw [payload3_apply]
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h2 : ((cfg3.win 2).blk t).view.emb (ix2 p q) = ((cfg3.win 4).blk t).view.emb (ix2 p q) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 128 + 1 * q.val = win3_4.index t (1 : Fin 2) * 128 + 1 * q.val; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have hq : ((((cfg3.win 4).blk t).view.emb (ix2 p q)) 1).val = q.val := by
    show win3_4.index t (1 : Fin 2) * 128 + 1 * q.val = q.val; omega
  exact combine_entry _ _ _ _ _ q _ _ _ _ (congrArg (V c main_v67) h1) (congrArg (V c main_v54) h0)
    (congrArg (V c main_v28) h2) (congrArg (V c main_v53) h3) hq

/-- An index of the output array is in point `t`'s block iff each coordinate lies in the block's range on its axis. -/
theorem mem_block3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v68).slice (win3_4.rect t)).set ↔ _
  rw [View.set_slice_whole, Rect.mem_set_unit]
  exact Iff.rfl

/-- Every entry of the output array lies in some point's block: row `r` in the block of point `r / 5000`. -/
theorem cover3 (i : S50000x128.Idx) : ∃ t : Fin cfg3.N, (cfg3.win 4).flush t = true ∧ i ∈ ((cfg3.win 4).blk t).view.set := by
  have hi0 : (i 0).val < 50000 := idx2_lt0 i
  have hi1 : (i 1).val < 128 := idx2_lt1 i
  have hN : cfg3.N = 10 := N_3
  have hlt : (i 0).val / 5000 < cfg3.N := by rw [hN]; omega
  obtain ⟨t, htv⟩ : ∃ t : Fin cfg3.N, t.val = (i 0).val / 5000 := ⟨⟨_, hlt⟩, rfl⟩
  obtain ⟨-, -, -, -, -, -, -, -, e40, e41⟩ := index_maps3 t
  refine ⟨t, flush3_4 t, ?_⟩
  rw [mem_block3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- The second layer's output array after its closing region: the closing step of the arrays the region found. -/
theorem final3 (c : Dev nD) : (dat3 (F := Ideal) V c).arrAt 4 cfg3.N
    = Cert.Spec.combine (V c main_v54) (V c main_v67) (V c main_v28) (V c main_v53) :=
  (dat3 V c).arrAt_eq_of_cover 4 (Cert.Spec.combine (V c main_v54) (V c main_v67) (V c main_v28) (V c main_v53))
    (fun t _ => flushed3_eq V c t) cover3

/-! ## The third layer's closing region -/

/-- The closing step's arithmetic at one entry of a block: entry (p, q) of the result reads entry (p, q) of the three
    row blocks and entry (0, q) of the bias row. -/
theorem payload5_apply (agg h d : Vec Ideal S5000x128 .f32) (b : Vec Ideal S1x128 .f32) (p : Fin 5000) (q : Fin 128) :
    k5_pay1 agg h d b (ix2 p q) = max (agg (ix2 p q) + h (ix2 p q) * d (ix2 p q) + b (ix2 (0 : Fin 1) q)) 0 := by
  unfold k5_pay1
  simp only [shapeCast_self]
  rw [maximumf_apply, addf_apply, addf_apply, mulf_apply, broadcast_apply, broadcastTo_1b_ab_apply]
  show max _ (Ideal.ofBits .f32 0x00000000#32) = _
  rw [Ideal.ofBits_zero_f32]

/-- The block index maps over the ten points: the three row-blocked inputs move with the output, whose block at point
    `t` is row block `t`, column block 0; the bias row's block never moves. -/
theorem index_maps5 : ∀ t : Fin cfg5.N,
    win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2) ∧ win5_2.index t (1 : Fin 2) = win5_4.index t (1 : Fin 2)
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the closing step of the whole arrays: entry (p, q) of a block at point
    `t` is entry (5000·t + p, q) of its array, for the three row-blocked inputs and the output alike, and the bias row's
    block is the whole row. -/
theorem flushed5_eq (c : Dev nD) (t : Fin cfg5.N) :
    (dat5 V c).flushed 4 t = ((cfg5.win 4).blk t).view.read (Elt Ideal)
      (Cert.Spec.combine (V c main_v74) (V c main_v87) (V c main_v28) (V c main_v73)) := by
  show (cfg5.win 4).cut (grid5.coords t) ((dat5 V c).after 4 t) = _
  rw [after5_4]
  unfold out5_4
  rw [View.canon_unit_zero zero_offsets]
  simp only [View.ld_unit_zero (S := S5000x128) zero_offsets, View.ld_unit_zero (S := S1x128) zero_offsets]
  obtain ⟨e00, e01, e10, e11, e20, e21, e30, e31, e40, e41⟩ := index_maps5 t
  funext j
  obtain ⟨p, q, rfl⟩ : ∃ (p : Fin 5000) (q : Fin 128), j = ix2 p q := ⟨j 0, j 1, eq_ix2 j⟩
  show k5_pay1 (iblk5 V c 1 t) (iblk5 V c 0 t) (iblk5 V c 2 t) (iblk5 V c 3 t) (ix2 p q)
    = Cert.Spec.combine (V c main_v74) (V c main_v87) (V c main_v28) (V c main_v73) (((cfg5.win 4).blk t).view.emb (ix2 p q))
  rw [payload5_apply]
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  have h2 : ((cfg5.win 2).blk t).view.emb (ix2 p q) = ((cfg5.win 4).blk t).view.emb (ix2 p q) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 128 + 1 * q.val = win5_4.index t (1 : Fin 2) * 128 + 1 * q.val; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  have hq : ((((cfg5.win 4).blk t).view.emb (ix2 p q)) 1).val = q.val := by
    show win5_4.index t (1 : Fin 2) * 128 + 1 * q.val = q.val; omega
  exact combine_entry _ _ _ _ _ q _ _ _ _ (congrArg (V c main_v87) h1) (congrArg (V c main_v74) h0)
    (congrArg (V c main_v28) h2) (congrArg (V c main_v73) h3) hq

/-- An index of the output array is in point `t`'s block iff each coordinate lies in the block's range on its axis. -/
theorem mem_block5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v88).slice (win5_4.rect t)).set ↔ _
  rw [View.set_slice_whole, Rect.mem_set_unit]
  exact Iff.rfl

/-- Every entry of the output array lies in some point's block: row `r` in the block of point `r / 5000`. -/
theorem cover5 (i : S50000x128.Idx) : ∃ t : Fin cfg5.N, (cfg5.win 4).flush t = true ∧ i ∈ ((cfg5.win 4).blk t).view.set := by
  have hi0 : (i 0).val < 50000 := idx2_lt0 i
  have hi1 : (i 1).val < 128 := idx2_lt1 i
  have hN : cfg5.N = 10 := N_5
  have hlt : (i 0).val / 5000 < cfg5.N := by rw [hN]; omega
  obtain ⟨t, htv⟩ : ∃ t : Fin cfg5.N, t.val = (i 0).val / 5000 := ⟨⟨_, hlt⟩, rfl⟩
  obtain ⟨-, -, -, -, -, -, -, -, e40, e41⟩ := index_maps5 t
  refine ⟨t, flush5_4 t, ?_⟩
  rw [mem_block5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- The third layer's output array after its closing region: the closing step of the arrays the region found. -/
theorem final5 (c : Dev nD) : (dat5 (F := Ideal) V c).arrAt 4 cfg5.N
    = Cert.Spec.combine (V c main_v74) (V c main_v87) (V c main_v28) (V c main_v73) :=
  (dat5 V c).arrAt_eq_of_cover 4 (Cert.Spec.combine (V c main_v74) (V c main_v87) (V c main_v28) (V c main_v73))
    (fun t _ => flushed5_eq V c t) cover5

end Cert.KernelIdeal.CombineRegion

end
-- ==== Proof.RefLayers.lean ====
/-
  The reference program, layer by layer, on the extended reals.

  Each of its three layers first multiplies the node features by the layer's weight matrix — entry (r, q) is the sum
  over k of x[r, k] · w[k, q] — and ends by adding, entry by entry, the neighbours' weighted sum, the node's own
  transformed feature times its squared inverse root degree, and the column's bias, and clipping at zero. The
  degrees, the edge coefficients and the squared inverse root degrees depend on the edge list only; the reference
  computes them again in every layer, by the same operations of the same edge list, so the three copies are one
  function.
-/
import proofs.«144507_j55997783605447_1_alg».proof.Proof.Gen.ReferenceIdeal.Read
import proofs.«144507_j55997783605447_1_alg».proof.Proof.Spec
import Idealize.ShloMosaic.Lib.ValueIdx
import Idealize.ShloMosaic.PureOps.Ideal.Laws

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx
open Cert.Spec

/-! ## The quantities that depend on the edge list only are the same in every layer -/

section EdgeOnly
variable {F : FTy → Type} [FloatOps F]
variable (x1 : (⟨S2x800000, .i32⟩ : BufTy).Contents (Elt F))

/-- The edge coefficient (inverse root degree of the source times that of the target), second layer's copy. -/
theorem coef_second : val_main_v79 (F := F) x1 = val_main_v30 (F := F) x1 := rfl
/-- The edge coefficient, third layer's copy. -/
theorem coef_third : val_main_v128 (F := F) x1 = val_main_v30 (F := F) x1 := rfl
/-- The squared inverse root degree spread over the feature axis, second layer's copy. -/
theorem dsq_second : val_main_v95 (F := F) x1 = val_main_v46 (F := F) x1 := rfl
/-- The squared inverse root degree spread over the feature axis, third layer's copy. -/
theorem dsq_third : val_main_v144 (F := F) x1 = val_main_v46 (F := F) x1 := rfl

end EdgeOnly

/-! ## The indices the read lemmas use are the specification's -/

theorem left_index_v8 (i : SN.Idx) (k : Fin 128) :
    lidx_main_v8 i k = ix2 (⟨(i 0).val, idx2_lt0 i⟩ : Fin 50000) k :=
  funext fun a => match a with | ⟨0, _⟩ => rfl | ⟨1, _⟩ => rfl
theorem right_index_v8 (i : SN.Idx) (k : Fin 128) :
    ridx_main_v8 i k = ix2 k (⟨(i 1).val, idx2_lt1 i⟩ : Fin 128) :=
  funext fun a => match a with | ⟨0, _⟩ => rfl | ⟨1, _⟩ => rfl
theorem left_index_v57 (i : SN.Idx) (k : Fin 128) :
    lidx_main_v57 i k = ix2 (⟨(i 0).val, idx2_lt0 i⟩ : Fin 50000) k :=
  funext fun a => match a with | ⟨0, _⟩ => rfl | ⟨1, _⟩ => rfl
theorem right_index_v57 (i : SN.Idx) (k : Fin 128) :
    ridx_main_v57 i k = ix2 k (⟨(i 1).val, idx2_lt1 i⟩ : Fin 128) :=
  funext fun a => match a with | ⟨0, _⟩ => rfl | ⟨1, _⟩ => rfl
theorem left_index_v106 (i : SN.Idx) (k : Fin 128) :
    lidx_main_v106 i k = ix2 (⟨(i 0).val, idx2_lt0 i⟩ : Fin 50000) k :=
  funext fun a => match a with | ⟨0, _⟩ => rfl | ⟨1, _⟩ => rfl
theorem right_index_v106 (i : SN.Idx) (k : Fin 128) :
    ridx_main_v106 i k = ix2 k (⟨(i 1).val, idx2_lt1 i⟩ : Fin 128) :=
  funext fun a => match a with | ⟨0, _⟩ => rfl | ⟨1, _⟩ => rfl

/-- The bias reaches entry (r, q) through a row of one and a spread over the rows: it is entry q of the vector. -/
theorem bias_index_v49 (i : SN.Idx) :
    idx_main_v49 (idx_main_v50 i) = ix1 (⟨(i 1).val, idx2_lt1 i⟩ : Fin 128) :=
  funext fun a => match a with | ⟨0, _⟩ => rfl
theorem bias_index_v98 (i : SN.Idx) :
    idx_main_v98 (idx_main_v99 i) = ix1 (⟨(i 1).val, idx2_lt1 i⟩ : Fin 128) :=
  funext fun a => match a with | ⟨0, _⟩ => rfl
theorem bias_index_v147 (i : SN.Idx) :
    idx_main_v147 (idx_main_v148 i) = ix1 (⟨(i 1).val, idx2_lt1 i⟩ : Fin 128) :=
  funext fun a => match a with | ⟨0, _⟩ => rfl

/-! ## The dense transform of each layer -/

variable (x0 : (⟨S50000x128, .f32⟩ : BufTy).Contents (Elt Ideal)) (x1 : (⟨S2x800000, .i32⟩ : BufTy).Contents (Elt Ideal))
  (x3 : (⟨S3x128x128, .f32⟩ : BufTy).Contents (Elt Ideal)) (x4 : (⟨S3x128, .f32⟩ : BufTy).Contents (Elt Ideal))

theorem dense_first : val_main_v8 (F := Ideal) x0 x3 = rowDot x0 (val_main_v5 (F := Ideal) x3) := by
  funext i
  rw [val_main_v8_apply]
  exact Finset.sum_congr rfl fun k _ => by rw [left_index_v8 i k, right_index_v8 i k]

theorem dense_second : val_main_v57 (F := Ideal) x0 x1 x3 x4
    = rowDot (val_main_v52 (F := Ideal) x0 x1 x3 x4) (val_main_v54 (F := Ideal) x3) := by
  funext i
  rw [val_main_v57_apply]
  exact Finset.sum_congr rfl fun k _ => by rw [left_index_v57 i k, right_index_v57 i k]

theorem dense_third : val_main_v106 (F := Ideal) x0 x1 x3 x4
    = rowDot (val_main_v101 (F := Ideal) x0 x1 x3 x4) (val_main_v103 (F := Ideal) x3) := by
  funext i
  rw [val_main_v106_apply]
  exact Finset.sum_congr rfl fun k _ => by rw [left_index_v106 i k, right_index_v106 i k]

/-! ## The closing step of each layer -/

theorem closing_first : val_main_v52 (F := Ideal) x0 x1 x3 x4
    = combine (val_main_v8 (F := Ideal) x0 x3) (val_main_v43 (F := Ideal) x0 x1 x3) (val_main_v46 (F := Ideal) x1)
        (biasRow (val_main_v7 (F := Ideal) x4)) := by
  funext i
  rw [val_main_v52_apply, val_main_v51_apply, val_main_v48_apply, val_main_v47_apply, val_main_v50_apply,
    val_main_v49_apply, val_main_call0_v0_apply, val_main_call0_cst_apply]
  show max (val_main_v43 (F := Ideal) x0 x1 x3 i + val_main_v8 (F := Ideal) x0 x3 i * val_main_v46 (F := Ideal) x1 i
      + val_main_v7 (F := Ideal) x4 (idx_main_v49 (idx_main_v50 i))) (Ideal.ofBits .f32 0x00000000#32) = _
  rw [Ideal.ofBits_zero_f32, bias_index_v49 i]
  rfl

theorem closing_second : val_main_v101 (F := Ideal) x0 x1 x3 x4
    = combine (val_main_v57 (F := Ideal) x0 x1 x3 x4) (val_main_v92 (F := Ideal) x0 x1 x3 x4) (val_main_v46 (F := Ideal) x1)
        (biasRow (val_main_v56 (F := Ideal) x4)) := by
  funext i
  rw [val_main_v101_apply, val_main_v100_apply, val_main_v97_apply, val_main_v96_apply, val_main_v99_apply,
    val_main_v98_apply, val_main_call1_v0_apply, val_main_call1_cst_apply, dsq_second]
  show max (val_main_v92 (F := Ideal) x0 x1 x3 x4 i + val_main_v57 (F := Ideal) x0 x1 x3 x4 i * val_main_v46 (F := Ideal) x1 i
      + val_main_v56 (F := Ideal) x4 (idx_main_v98 (idx_main_v99 i))) (Ideal.ofBits .f32 0x00000000#32) = _
  rw [Ideal.ofBits_zero_f32, bias_index_v98 i]
  rfl

theorem closing_third : val_main_v150 (F := Ideal) x0 x1 x3 x4
    = combine (val_main_v106 (F := Ideal) x0 x1 x3 x4) (val_main_v141 (F := Ideal) x0 x1 x3 x4) (val_main_v46 (F := Ideal) x1)
        (biasRow (val_main_v105 (F := Ideal) x4)) := by
  funext i
  rw [val_main_v150_apply, val_main_v149_apply, val_main_v146_apply, val_main_v145_apply, val_main_v148_apply,
    val_main_v147_apply, val_main_call2_v0_apply, val_main_call2_cst_apply, dsq_third]
  show max (val_main_v141 (F := Ideal) x0 x1 x3 x4 i + val_main_v106 (F := Ideal) x0 x1 x3 x4 i * val_main_v46 (F := Ideal) x1 i
      + val_main_v105 (F := Ideal) x4 (idx_main_v147 (idx_main_v148 i))) (Ideal.ofBits .f32 0x00000000#32) = _
  rw [Ideal.ofBits_zero_f32, bias_index_v147 i]
  rfl

end Cert.ReferenceIdeal.Layers

end
-- ==== Proof.RefAggregate.lean ====
/-
  The neighbours' weighted sum, as one function.

  From transformed features h, the edges' source and target nodes and the edges' coefficients: take row src[e] of h
  for every edge e (a negative node number counts from the end), scale it by coef[e], and add it into row dst[e] of
  an array of zeros. Each layer of the reference applies exactly this chain of host operations, to its own h and —
  since the edge list does not change — to the same sources, targets and coefficients.
-/
import proofs.«144507_j55997783605447_1_alg».proof.Proof.Gen.ReferenceIdeal.Read
import proofs.«144507_j55997783605447_1_alg».proof.Proof.RefLayers

set_option maxRecDepth 16384

noncomputable section

namespace Cert.ReferenceIdeal.Layers

open Cert.ReferenceIdeal Cert.ReferenceIdeal.Gen Cert.ReferenceIdeal.Read
open Idealize.ShloMosaic Idealize.ShloMosaic.TcCoe

variable {F : FTy → Type} [FloatOps F]

/-- Gather the rows of `h` at the edges' sources, scale each by its edge's coefficient, and add each into its
    target's row of zeros. -/
def aggregate (h : (⟨S50000x128, .f32⟩ : BufTy).Contents (Elt F)) (src dst : (⟨S800000, .i32⟩ : BufTy).Contents (Elt F))
    (coef : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 coef)))

variable (x0 : (⟨S50000x128, .f32⟩ : BufTy).Contents (Elt F)) (x1 : (⟨S2x800000, .i32⟩ : BufTy).Contents (Elt F))
  (x3 : (⟨S3x128x128, .f32⟩ : BufTy).Contents (Elt F)) (x4 : (⟨S3x128, .f32⟩ : BufTy).Contents (Elt F))

theorem aggregate_first : val_main_v43 (F := F) x0 x1 x3
    = aggregate (val_main_v8 (F := F) x0 x3) (val_main_v1 (F := F) x1) (val_main_v3 (F := F) x1) (val_main_v30 (F := F) x1) := rfl

theorem aggregate_second : val_main_v92 (F := F) x0 x1 x3 x4
    = aggregate (val_main_v57 (F := F) x0 x1 x3 x4) (val_main_v1 (F := F) x1) (val_main_v3 (F := F) x1) (val_main_v30 (F := F) x1) := rfl

theorem aggregate_third : val_main_v141 (F := F) x0 x1 x3 x4
    = aggregate (val_main_v106 (F := F) x0 x1 x3 x4) (val_main_v1 (F := F) x1) (val_main_v3 (F := F) x1) (val_main_v30 (F := F) x1) := rfl

end Cert.ReferenceIdeal.Layers

end
-- ==== Proof.Layers.lean ====
/-
  The idealized kernel, layer by layer, against the reference's stages.

  Write x for the node features a layer starts from. The layer's dense transform runs tile by tile: tile t takes rows
  5000·t … 5000·t + 4999 of x and the whole weight matrix, and writes the same rows of h = x · w; a row of a product
  needs only that row of the left factor, so the ten tiles together write exactly x · w. Host operations then gather
  h at each edge's source, scale by the edge's coefficient and add up at the edge's target: the same operations, on
  the same edge list, that the reference applies to its own x · w. The closing step again runs tile by tile and entry by
  entry: max (agg + h · d + bias, 0). So if the layer starts from the reference's features it ends at the reference's
  features; the first layer starts from the argument itself, and three layers later the two programs apply the same
  closing host operations to the same features.
-/
import proofs.«144507_j55997783605447_1_alg».proof.Proof.Boundary0
import proofs.«144507_j55997783605447_1_alg».proof.Proof.MatmulRegion
import proofs.«144507_j55997783605447_1_alg».proof.Proof.CombineRegion
import proofs.«144507_j55997783605447_1_alg».proof.Proof.RefLayers
import proofs.«144507_j55997783605447_1_alg».proof.Proof.RefAggregate

set_option maxRecDepth 16384

noncomputable section

namespace Cert.KernelIdeal.Boundary

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read Cert.ReferenceIdeal.Layers
open Cert.KernelIdeal.MatmulRegion Cert.KernelIdeal.CombineRegion
open Cert.Spec

variable (m : (ℓ : Loc nD τ sig) → Buf (Elt Ideal) ℓ) (ρ : Dev nD → PrngReg) (c : Dev nD)

/-! ## First layer -/

/-- The first dense transform leaves the reference's: the argument features times slice 0 of the weights. -/
theorem dense_first_eq : W2 m ρ c (Proc.devRef .tc main_v34)
    = val_main_v8 (F := Ideal) (m ((c : Thread nD τ).loc main_arg0)) (m ((c : Thread nD τ).loc main_arg3)) := by
  refine (W2_arr m ρ c 2).trans ?_
  refine (final0 (V1 m ρ) c).trans ?_
  show rowDot (W1 m ρ c (Proc.devRef .tc main_arg0)) (W1 m ρ c (Proc.devRef .tc main_v30)) = _
  rw [keep_arg0_1_0, weight_first]
  exact (dense_first _ _).symm

set_option maxHeartbeats 1000000 in
/-- The neighbours' weighted sum of the first layer is the reference's. -/
theorem agg_first_eq : W3 m ρ c (Proc.devRef .tc main_v47)
    = val_main_v43 (F := Ideal) (m ((c : Thread nD τ).loc main_arg0)) (m ((c : Thread nD τ).loc main_arg1)) (m ((c : Thread nD τ).loc main_arg3)) := by
  dsimp only [W3, hostOps1]
  after_results
  rw [dense_first_eq, keep_v1_2_1, keep_v3_2_1, keep_v25_2_1, src_nodes, dst_nodes, edge_coef]
  refine Eq.trans ?_ (aggregate_first _ _ _).symm
  generalize val_main_v8 (F := Ideal) (m ((c : Thread nD τ).loc main_arg0)) (m ((c : Thread nD τ).loc main_arg3)) = h
  generalize val_main_v1 (F := Ideal) (m ((c : Thread nD τ).loc main_arg1)) = src
  generalize val_main_v3 (F := Ideal) (m ((c : Thread nD τ).loc main_arg1)) = dst
  generalize val_main_v30 (F := Ideal) (m ((c : Thread nD τ).loc main_arg1)) = coef
  rfl

/-- The first layer ends at the reference's features. -/
theorem layer_first_eq : W4 m ρ c (Proc.devRef .tc main_v48)
    = val_main_v52 (F := Ideal) (m ((c : Thread nD τ).loc main_arg0)) (m ((c : Thread nD τ).loc main_arg1)) (m ((c : Thread nD τ).loc main_arg3)) (m ((c : Thread nD τ).loc main_arg4)) := by
  refine (W4_arr m ρ c 4).trans ?_
  refine (final1 (V3 m ρ) c).trans ?_
  show combine (W3 m ρ c (Proc.devRef .tc main_v34)) (W3 m ρ c (Proc.devRef .tc main_v47))
    (W3 m ρ c (Proc.devRef .tc main_v28)) (W3 m ρ c (Proc.devRef .tc main_v33)) = _
  rw [keep_v34_3_2, dense_first_eq, agg_first_eq, keep_v28_3_1, inv_degree, keep_v33_3_1, bias_first]
  exact (closing_first _ _ _ _).symm

/-! ## Second layer -/

/-- The second layer's weight matrix: slice 1 of the weights. -/
theorem weight_second : W5 m ρ c (Proc.devRef .tc main_v50)
    = val_main_v54 (F := Ideal) (m ((c : Thread nD τ).loc main_arg3)) := by
  dsimp only [W5, hostOps2]
  after_results
  rw [keep_arg3_4_0]
  rfl

/-- The second layer's bias as a row: slice 1 of the biases. -/
theorem bias_second : W5 m ρ c (Proc.devRef .tc main_v53)
    = biasRow (val_main_v56 (F := Ideal) (m ((c : Thread nD τ).loc main_arg4))) := by
  refine Eq.trans ?_ (row_of_vector _ shapeCasts_S128_S1x128)
  dsimp only [W5, hostOps2]
  after_results
  rw [keep_arg4_4_0]
  rfl

/-- The second dense transform leaves the reference's: the first layer's features times slice 1 of the weights. -/
theorem dense_second_eq : W6 m ρ c (Proc.devRef .tc main_v54)
    = val_main_v57 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  refine (final2 (V5 m ρ) c).trans ?_
  show rowDot (W5 m ρ c (Proc.devRef .tc main_v48)) (W5 m ρ c (Proc.devRef .tc main_v50)) = _
  rw [keep_v48_5_4, layer_first_eq, weight_second]
  exact (dense_second _ _ _ _).symm

set_option maxHeartbeats 1000000 in
/-- The neighbours' weighted sum of the second layer is the reference's. -/
theorem agg_second_eq : W7 m ρ c (Proc.devRef .tc main_v67)
    = val_main_v92 (F := Ideal) (m ((c : Thread nD τ).loc main_arg0)) (m ((c : Thread nD τ).loc main_arg1)) (m ((c : Thread nD τ).loc main_arg3)) (m ((c : Thread nD τ).loc main_arg4)) := by
  dsimp only [W7, hostOps3]
  after_results
  rw [dense_second_eq, keep_v1_6_1, keep_v3_6_1, keep_v25_6_1, src_nodes, dst_nodes, edge_coef]
  refine Eq.trans ?_ (aggregate_second _ _ _ _).symm
  generalize val_main_v57 (F := Ideal) (m ((c : Thread nD τ).loc main_arg0)) (m ((c : Thread nD τ).loc main_arg1)) (m ((c : Thread nD τ).loc main_arg3)) (m ((c : Thread nD τ).loc main_arg4)) = h
  generalize val_main_v1 (F := Ideal) (m ((c : Thread nD τ).loc main_arg1)) = src
  generalize val_main_v3 (F := Ideal) (m ((c : Thread nD τ).loc main_arg1)) = dst
  generalize val_main_v30 (F := Ideal) (m ((c : Thread nD τ).loc main_arg1)) = coef
  rfl

/-- The second layer ends at the reference's features. -/
theorem layer_second_eq : W8 m ρ c (Proc.devRef .tc main_v68)
    = val_main_v101 (F := Ideal) (m ((c : Thread nD τ).loc main_arg0)) (m ((c : Thread nD τ).loc main_arg1)) (m ((c : Thread nD τ).loc main_arg3)) (m ((c : Thread nD τ).loc main_arg4)) := by
  refine (W8_arr m ρ c 4).trans ?_
  refine (final3 (V7 m ρ) c).trans ?_
  show combine (W7 m ρ c (Proc.devRef .tc main_v54)) (W7 m ρ c (Proc.devRef .tc main_v67))
    (W7 m ρ c (Proc.devRef .tc main_v28)) (W7 m ρ c (Proc.devRef .tc main_v53)) = _
  rw [keep_v54_7_6, dense_second_eq, agg_second_eq, keep_v28_7_1, inv_degree, keep_v53_7_5, bias_second]
  exact (closing_second _ _ _ _).symm

/-! ## Third layer -/

/-- The third layer's weight matrix: slice 2 of the weights. -/
theorem weight_third : W9 m ρ c (Proc.devRef .tc main_v70)
    = val_main_v103 (F := Ideal) (m ((c : Thread nD τ).loc main_arg3)) := by
  dsimp only [W9, hostOps4]
  after_results
  rw [keep_arg3_8_0]
  rfl

/-- The third layer's bias as a row: slice 2 of the biases. -/
theorem bias_third : W9 m ρ c (Proc.devRef .tc main_v73)
    = biasRow (val_main_v105 (F := Ideal) (m ((c : Thread nD τ).loc main_arg4))) := by
  refine Eq.trans ?_ (row_of_vector _ shapeCasts_S128_S1x128)
  dsimp only [W9, hostOps4]
  after_results
  rw [keep_arg4_8_0]
  rfl

/-- The third dense transform leaves the reference's: the second layer's features times slice 2 of the weights. -/
theorem dense_third_eq : W10 m ρ c (Proc.devRef .tc main_v74)
    = val_main_v106 (F := Ideal) (m ((c : Thread nD τ).loc main_arg0)) (m ((c : Thread nD τ).loc main_arg1)) (m ((c : Thread nD τ).loc main_arg3)) (m ((c : Thread nD τ).loc main_arg4)) := by
  refine (W10_arr m ρ c 2).trans ?_
  refine (final4 (V9 m ρ) c).trans ?_
  show rowDot (W9 m ρ c (Proc.devRef .tc main_v68)) (W9 m ρ c (Proc.devRef .tc main_v70)) = _
  rw [keep_v68_9_8, layer_second_eq, weight_third]
  exact (dense_third _ _ _ _).symm

set_option maxHeartbeats 1000000 in
/-- The neighbours' weighted sum of the third layer is the reference's. -/
theorem agg_third_eq : W11 m ρ c (Proc.devRef .tc main_v87)
    = val_main_v141 (F := Ideal) (m ((c : Thread nD τ).loc main_arg0)) (m ((c : Thread nD τ).loc main_arg1)) (m ((c : Thread nD τ).loc main_arg3)) (m ((c : Thread nD τ).loc main_arg4)) := by
  dsimp only [W11, hostOps5]
  after_results
  rw [dense_third_eq, keep_v1_10_1, keep_v3_10_1, keep_v25_10_1, src_nodes, dst_nodes, edge_coef]
  refine Eq.trans ?_ (aggregate_third _ _ _ _).symm
  generalize val_main_v106 (F := Ideal) (m ((c : Thread nD τ).loc main_arg0)) (m ((c : Thread nD τ).loc main_arg1)) (m ((c : Thread nD τ).loc main_arg3)) (m ((c : Thread nD τ).loc main_arg4)) = h
  generalize val_main_v1 (F := Ideal) (m ((c : Thread nD τ).loc main_arg1)) = src
  generalize val_main_v3 (F := Ideal) (m ((c : Thread nD τ).loc main_arg1)) = dst
  generalize val_main_v30 (F := Ideal) (m ((c : Thread nD τ).loc main_arg1)) = coef
  rfl

/-- The third layer ends at the reference's features. -/
theorem layer_third_eq : W12 m ρ c (Proc.devRef .tc main_v88)
    = val_main_v150 (F := Ideal) (m ((c : Thread nD τ).loc main_arg0)) (m ((c : Thread nD τ).loc main_arg1)) (m ((c : Thread nD τ).loc main_arg3)) (m ((c : Thread nD τ).loc main_arg4)) := by
  refine (W12_arr m ρ c 4).trans ?_
  refine (final5 (V11 m ρ) c).trans ?_
  show combine (W11 m ρ c (Proc.devRef .tc main_v74)) (W11 m ρ c (Proc.devRef .tc main_v87))
    (W11 m ρ c (Proc.devRef .tc main_v28)) (W11 m ρ c (Proc.devRef .tc main_v73)) = _
  rw [keep_v74_11_10, dense_third_eq, agg_third_eq, keep_v28_11_1, inv_degree, keep_v73_11_9, bias_third]
  exact (closing_third _ _ _ _).symm

/-! ## The two results: the same closing host operations of the same features -/

/-- The per-node result: the last features against the node weights, plus the node bias. -/
theorem node_result_eq : W15 m ρ c (Proc.devRef .tc main_v93)
    = val_main_v155 (F := Ideal) (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg10)) := by
  dsimp only [W15, W14, W13, hostOps6_2, hostOps6_1, hostOps6]
  after_results_simp
  rw [layer_third_eq, keep_arg9_12_0, keep_arg10_12_0]
  rfl

/-- The per-graph result: the graphs' mean features through the two-layer head. -/
theorem graph_result_eq : W15 m ρ c (Proc.devRef .tc main_v114)
    = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W15, W14, W13, hostOps6_2, hostOps6_1, hostOps6]
  after_results_simp
  rw [layer_third_eq, keep_arg2_12_0, keep_arg5_12_0, keep_arg6_12_0, keep_arg7_12_0, keep_arg8_12_0]
  rfl

end Cert.KernelIdeal.Boundary

end
-- ==== Proof.lean ====
/-
  The three-layer graph convolution computed with tiled dense transforms and tiled closing steps equals, on the
  extended reals, the same network computed in one piece.

  Both programs derive from the edge list each node's degree (incoming edges plus one), its inverse root d, each edge's
  coefficient d[src] · d[dst] and d², by the same operations. A layer maps features x to
      max (S (gather (x · w) src · coef) + (x · w) · d² + b, 0),
  where S adds each edge's row into its target node's row. The kernel computes x · w ten row blocks at a time, into a
  zero accumulator; a row of x · w is the sum over k of x[r, k] · w[k, q] whichever block the row sits in, and adding that sum to
  zero changes nothing, so the blocks together are x · w. It computes the closing step ten row blocks at a time as well,
  entry by entry, with the operations in the reference's order. The gather, the scaling and the scatter between the
  two are host operations, the same in both programs; so are the operations after the third layer (the node scores, the
  graphs' mean features and the two-layer head). Hence each layer of the kernel ends at the reference's features, and both
  results agree. No law used here needs a finite operand: regrouping a sum and adding zero hold for infinite extended
  reals too, so the precondition is never opened.

  The frames of the two kernel programs are the generated ones; the reference has no tiled region, and its frame is its
  run with the results dropped. The kernel and its idealization are one text, so nothing is owed for the idealization.
-/
import proofs.«144507_j55997783605447_1_alg».proof.Defs
import proofs.«144507_j55997783605447_1_alg».proof.Proof.Gen.Kernel
import proofs.«144507_j55997783605447_1_alg».proof.Proof.Gen.Kernel.Skeleton
import proofs.«144507_j55997783605447_1_alg».proof.Proof.Gen.Kernel.Launch
import proofs.«144507_j55997783605447_1_alg».proof.Proof.Gen.Kernel.Points
import proofs.«144507_j55997783605447_1_alg».proof.Proof.Gen.Kernel.Frame
import proofs.«144507_j55997783605447_1_alg».proof.Proof.Gen.KernelIdeal
import proofs.«144507_j55997783605447_1_alg».proof.Proof.Gen.KernelIdeal.Skeleton
import proofs.«144507_j55997783605447_1_alg».proof.Proof.Gen.KernelIdeal.Launch
import proofs.«144507_j55997783605447_1_alg».proof.Proof.Gen.KernelIdeal.Points
import proofs.«144507_j55997783605447_1_alg».proof.Proof.Gen.KernelIdeal.Frame
import proofs.«144507_j55997783605447_1_alg».proof.Proof.Gen.ReferenceIdeal
import proofs.«144507_j55997783605447_1_alg».proof.Proof.Gen.ReferenceIdeal.Run
import proofs.«144507_j55997783605447_1_alg».proof.Proof.Gen.ReferenceIdeal.Read
import proofs.«144507_j55997783605447_1_alg».proof.Proof.Gen.Pre_finite_inputs
import proofs.«144507_j55997783605447_1_alg».proof.Proof.KernelRun
import proofs.«144507_j55997783605447_1_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem

/-- Both idealized programs run, from memories that agree on the arguments, to the same two results: each ends at the
    reference's last stage of the arguments. -/
theorem algebraic : Cert.algebraic_KernelIdeal_ReferenceIdeal := by
  intro m ρ m' ρ' _ hagree
  refine ⟨fun c => Cert.ReferenceIdeal.Read.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Gen.mem_uc Cert.KernelIdeal.main_v93 (by decide))).trans (Cert.KernelIdeal.Boundary.node_result_eq m ρ c),
       (h c _ (Cert.KernelIdeal.Gen.mem_uc Cert.KernelIdeal.main_v114 (by decide))).trans (Cert.KernelIdeal.Boundary.graph_result_eq m ρ c),
       (h c _ (Cert.KernelIdeal.Gen.mem_uc Cert.KernelIdeal.main_arg0 (by decide))).trans (Cert.KernelIdeal.Gen.W15_main_arg0 m ρ c),
       (h c _ (Cert.KernelIdeal.Gen.mem_uc Cert.KernelIdeal.main_arg1 (by decide))).trans (Cert.KernelIdeal.Gen.W15_main_arg1 m ρ c),
       (h c _ (Cert.KernelIdeal.Gen.mem_uc Cert.KernelIdeal.main_arg2 (by decide))).trans (Cert.KernelIdeal.Gen.W15_main_arg2 m ρ c),
       (h c _ (Cert.KernelIdeal.Gen.mem_uc Cert.KernelIdeal.main_arg3 (by decide))).trans (Cert.KernelIdeal.Gen.W15_main_arg3 m ρ c),
       (h c _ (Cert.KernelIdeal.Gen.mem_uc Cert.KernelIdeal.main_arg4 (by decide))).trans (Cert.KernelIdeal.Gen.W15_main_arg4 m ρ c),
       (h c _ (Cert.KernelIdeal.Gen.mem_uc Cert.KernelIdeal.main_arg5 (by decide))).trans (Cert.KernelIdeal.Gen.W15_main_arg5 m ρ c),
       (h c _ (Cert.KernelIdeal.Gen.mem_uc Cert.KernelIdeal.main_arg6 (by decide))).trans (Cert.KernelIdeal.Gen.W15_main_arg6 m ρ c),
       (h c _ (Cert.KernelIdeal.Gen.mem_uc Cert.KernelIdeal.main_arg7 (by decide))).trans (Cert.KernelIdeal.Gen.W15_main_arg7 m ρ c),
       (h c _ (Cert.KernelIdeal.Gen.mem_uc Cert.KernelIdeal.main_arg8 (by decide))).trans (Cert.KernelIdeal.Gen.W15_main_arg8 m ρ c),
       (h c _ (Cert.KernelIdeal.Gen.mem_uc Cert.KernelIdeal.main_arg9 (by decide))).trans (Cert.KernelIdeal.Gen.W15_main_arg9 m ρ c),
       (h c _ (Cert.KernelIdeal.Gen.mem_uc Cert.KernelIdeal.main_arg10 (by decide))).trans (Cert.KernelIdeal.Gen.W15_main_arg10 m ρ c)⟩)
      (Cert.KernelIdeal.RunValue.run_end m ρ)
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10⟩ := hagree c
    refine ⟨?_, ?_, hargs⟩
    · rw [h0, Cert.ReferenceIdeal.Read.val_main_v155_eq, e0, e1, e3, e4, e9, e10]
    · rw [h1, Cert.ReferenceIdeal.Read.val_main_v176_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
